-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S4000x1 : Shape := ⟨2, ![4000, 1]⟩
abbrev S4000 : Shape := ⟨1, ![4000]⟩

abbrev nBuf : Space → Nat
  | .hbm => 55
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S1x128, .f32⟩
  | .hbm, ⟨54, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x1, .f32⟩
  | .local _ .vmem, ⟨16, _⟩ => ⟨S4000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S4000x128, .f32⟩
  | .local _ .vmem, ⟨21, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000, .f32⟩
  | .hbm, ⟨46, _⟩ => ⟨S100000x1, .f32⟩
  | .hbm, ⟨47, _⟩ => ⟨S100000x1, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S_, .f32⟩
  | .hbm, ⟨70, _⟩ => ⟨S1600000, .f32⟩
  | .hbm, ⟨71, _⟩ => ⟨S_, .f32⟩
  | .hbm, ⟨72, _⟩ => ⟨S100000, .f32⟩
  | .hbm, ⟨73, _⟩ => ⟨S1600000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S100000, .f32⟩
  | .hbm, ⟨90, _⟩ => ⟨S100000x1, .f32⟩
  | .hbm, ⟨91, _⟩ => ⟨S100000x1, .f32⟩
  | .hbm, ⟨92, _⟩ => ⟨S_, .f32⟩
  | .hbm, ⟨93, _⟩ => ⟨S100000x1, .f32⟩
  | .hbm, ⟨94, _⟩ => ⟨S100000x1, .f32⟩
  | .hbm, ⟨95, _⟩ => ⟨S100000x128, .f32⟩
  | .hbm, ⟨96, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_v0 : Ref sig .tc := ⟨.hbm, 43, rfl⟩
abbrev main_call0_cst : Ref sig .tc := ⟨.hbm, 44, rfl⟩
abbrev main_call0_v1 : Ref sig .tc := ⟨.hbm, 45, rfl⟩
abbrev main_call0_v2 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_cst : Ref sig .tc := ⟨.hbm, 53, rfl⟩
abbrev main_call1_v0 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call2_v0 : Ref sig .tc := ⟨.hbm, 87, rfl⟩
abbrev main_call2_cst : Ref sig .tc := ⟨.hbm, 88, rfl⟩
abbrev main_call2_v1 : Ref sig .tc := ⟨.hbm, 89, rfl⟩
abbrev main_call2_v2 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageRow.lean ====
/-
  One GraphSAGE layer on one node, over the extended reals.

  A node has a row `x` of 128 features and the row `a` of the sums of its in-neighbours' features.  The layer takes
  the mean `a / n` (`n` the larger of the in-degree and one), sends it through a 128 × 128 matrix `wl`, adds the
  node's own row through a matrix `wr` and a bias row `b`, and divides the resulting row by the larger of its
  Euclidean length and a small positive level.

  Two spellings of the first step occur.  One multiplies every entry of `a` by a precomputed reciprocal `s = 1 / n`
  and adds the bias last (`preMul`); the other divides every entry of `a` by `n` and adds the bias before the
  node's own term (`preDiv`).  They are the same row whenever `n` is the larger of some number and one
  (`preMul_eq_preDiv`): `n` is then not zero, so dividing by it is multiplying by its inverse, `1 / n` is that inverse,
  and addition of extended reals is commutative and associative.  Nothing has to be finite.
-/
import Idealize.ShloMosaic.PureOps.Ideal.Laws
import Idealize.ShloMosaic.Lib.IdealHost
import Idealize.ShloMosaic.Lib.ValueIdx

noncomputable section

open scoped BigOperators

namespace Cert.Sage

open Idealize.ShloMosaic Idealize.ShloMosaic.ValueIdx

/-- The level below which a row's length is not used as a divisor (the word of the single-precision number nearest 1e-12). -/
def eps : EReal := Ideal.ofBits .f32 0x2B8CBCCC#32

/-- The word of the number one. -/
def one : EReal := Ideal.ofBits .f32 0x3F800000#32

theorem one_eq : one = 1 := Ideal.ofBits_one_f32

/-- The row before normalisation, the neighbour sum scaled by a reciprocal `s`, the bias added last. -/
def preMul (a x : Fin 128 → EReal) (s : EReal) (wl wr : Fin 128 → Fin 128 → EReal) (b : Fin 128 → EReal)
    (c : Fin 128) : EReal :=
  ((∑ k : Fin 128, (a k * s) * wl k c) + (∑ k : Fin 128, x k * wr k c)) + b c

/-- The row before normalisation, the neighbour sum divided by `n`, the bias added before the node's own term. -/
def preDiv (a x : Fin 128 → EReal) (n : EReal) (wl wr : Fin 128 → Fin 128 → EReal) (b : Fin 128 → EReal)
    (c : Fin 128) : EReal :=
  ((∑ k : Fin 128, Ideal.div (a k) n * wl k c) + b c) + (∑ k : Fin 128, x k * wr k c)

/-- A row divided by the larger of its Euclidean length and `eps`. -/
def nrm (v : Fin 128 → EReal) (c : Fin 128) : EReal :=
  Ideal.div (v c) (max (Ideal.sqrt (∑ j : Fin 128, v j * v j)) eps)

/-- The rectifier's level: the word of zero. -/
def zero : EReal := Ideal.ofBits .f32 0x00000000#32

/-- With `n = max u 1`, scaling by `1 / n` and dividing by `n` give the same row. -/
theorem preMul_eq_preDiv (a x : Fin 128 → EReal) (u : EReal) (wl wr : Fin 128 → Fin 128 → EReal) (b : Fin 128 → EReal) :
    preMul a x (Ideal.div one (max u one)) wl wr b = preDiv a x (max u one) wl wr b := by
  funext c
  have hn : max u one ≠ 0 := by
    have h1 : (0 : EReal) < max u one := lt_of_lt_of_le (by rw [one_eq]; exact zero_lt_one) (le_max_right u one)
    exact ne_of_gt h1
  have hs : Ideal.div one (max u one) = (max u one)⁻¹ := by
    rw [Ideal.div, if_neg hn, one_eq, one_mul]
  unfold preMul preDiv
  rw [hs]
  have hk : ∀ k : Fin 128, Ideal.div (a k) (max u one) = a k * (max u one)⁻¹ := fun k => by
    rw [Ideal.div, if_neg hn]
  simp only [hk]
  rw [add_right_comm]

/-! ## The layer on every row of an array

An array of `R` nodes is `[R, 128]`; the reciprocals arrive as a column `[R, 1]` and the bias as a row `[1, 128]`.
Row `p` of the result depends on row `p` of the operands and on nothing else of them, so a block of rows of the result
is the layer of the same block of rows (`layerMul_rows`). -/

/-- The scaling spelling applied to every row. -/
def layerMul {R : ℕ} (A X : (⟨2, ![R, 128]⟩ : Shape).Idx → EReal) (S : (⟨2, ![R, 1]⟩ : Shape).Idx → EReal)
    (WL WR : (⟨2, ![128, 128]⟩ : Shape).Idx → EReal) (B : (⟨2, ![1, 128]⟩ : Shape).Idx → EReal) :
    (⟨2, ![R, 128]⟩ : Shape).Idx → EReal :=
  fun i => nrm (preMul (fun k => A (ix2 (idxEquiv2 (n0 := R) (n1 := 128) i).1 k))
      (fun k => X (ix2 (idxEquiv2 (n0 := R) (n1 := 128) i).1 k))
      (S (ix2 (idxEquiv2 (n0 := R) (n1 := 128) i).1 (0 : Fin 1)))
      (fun k j => WL (ix2 k j)) (fun k j => WR (ix2 k j)) (fun j => B (ix2 (0 : Fin 1) j)))
    (idxEquiv2 (n0 := R) (n1 := 128) i).2

theorem layerMul_apply {R : ℕ} (A X : (⟨2, ![R, 128]⟩ : Shape).Idx → EReal) (S : (⟨2, ![R, 1]⟩ : Shape).Idx → EReal)
    (WL WR : (⟨2, ![128, 128]⟩ : Shape).Idx → EReal) (B : (⟨2, ![1, 128]⟩ : Shape).Idx → EReal) (p : Fin R) (c : Fin 128) :
    layerMul A X S WL WR B (ix2 p c)
      = nrm (preMul (fun k => A (ix2 p k)) (fun k => X (ix2 p k)) (S (ix2 p (0 : Fin 1)))
          (fun k j => WL (ix2 k j)) (fun k j => WR (ix2 k j)) (fun j => B (ix2 (0 : Fin 1) j))) c := rfl

/-- Row `p` of the layer of `a, x, s` is row `p'` of the layer of `A, X, S` when row `p` of each of the first is row
    `p'` of the corresponding one of the second (the weights and the bias shared). -/
theorem layerMul_rows {R R' : ℕ} (a x : (⟨2, ![R, 128]⟩ : Shape).Idx → EReal) (s : (⟨2, ![R, 1]⟩ : Shape).Idx → EReal)
    (A X : (⟨2, ![R', 128]⟩ : Shape).Idx → EReal) (S : (⟨2, ![R', 1]⟩ : Shape).Idx → EReal)
    (WL WR : (⟨2, ![128, 128]⟩ : Shape).Idx → EReal) (B : (⟨2, ![1, 128]⟩ : Shape).Idx → EReal)
    (p : Fin R) (p' : Fin R') (ha : ∀ k : Fin 128, a (ix2 p k) = A (ix2 p' k)) (hx : ∀ k : Fin 128, x (ix2 p k) = X (ix2 p' k))
    (hs : s (ix2 p (0 : Fin 1)) = S (ix2 p' (0 : Fin 1))) (c : Fin 128) :
    layerMul a x s WL WR B (ix2 p c) = layerMul A X S WL WR B (ix2 p' c) := by
  rw [layerMul_apply, layerMul_apply, show (fun k => a (ix2 p k)) = fun k => A (ix2 p' k) from funext ha,
    show (fun k => x (ix2 p k)) = fun k => X (ix2 p' k) from funext hx, hs]

end Cert.Sage

end
-- ==== Proof.FinalBlocks.lean ====
/-
  The two grids of the kernel program, block by block.

  Each grid has 25 points.  Point `t` reads rows `4000 t … 4000 t + 3999` of the neighbour sums, of the nodes' own rows
  and of the reciprocal counts, the whole of the two weight matrices and of the bias row, and writes back the same rows
  of the result.  Because a row of a layer's result depends only on the same row of its operands (`block_layer`), what a
  point writes back is its block of the layer applied to the whole arrays; the 25 blocks tile the result array
  (`cover`), the row `r` lying in the block of the point `r / 4000`.
-/
import proofs.«154690_j45655502356568_2_alg».proof.Proof.Gen.KernelIdeal.Frame
import proofs.«154690_j45655502356568_2_alg».proof.Proof.SageRow
import Idealize.ShloMosaic.Lib.Pipeline.Value
import Idealize.ShloMosaic.Lib.ValueIdx

set_option maxRecDepth 16384

noncomputable section

namespace Cert.KernelIdeal.SageBlocks

open Cert.KernelIdeal Cert.KernelIdeal.Gen Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- A block of 4000 rows of the layer is the layer of the blocks: when `a`, `x`, `s` are `A`, `X`, `S` read `off` rows
    down, the layer of the first at `y` is the layer of the second at the index `z` that is `y` moved `off` rows down. -/
theorem block_layer (a x : (⟨2, ![4000, 128]⟩ : Shape).Idx → EReal) (s : (⟨2, ![4000, 1]⟩ : Shape).Idx → EReal)
    (A X : (⟨2, ![100000, 128]⟩ : Shape).Idx → EReal) (S : (⟨2, ![100000, 1]⟩ : Shape).Idx → EReal)
    (WL WR : (⟨2, ![128, 128]⟩ : Shape).Idx → EReal) (B : (⟨2, ![1, 128]⟩ : Shape).Idx → EReal) (off : ℕ)
    (y : (⟨2, ![4000, 128]⟩ : Shape).Idx) (z : (⟨2, ![100000, 128]⟩ : Shape).Idx)
    (hz0 : (z 0).val = off + (y 0).val) (hz1 : (z 1).val = (y 1).val)
    (ha : ∀ (y' : (⟨2, ![4000, 128]⟩ : Shape).Idx) (z' : (⟨2, ![100000, 128]⟩ : Shape).Idx),
      (z' 0).val = off + (y' 0).val → (z' 1).val = (y' 1).val → a y' = A z')
    (hx : ∀ (y' : (⟨2, ![4000, 128]⟩ : Shape).Idx) (z' : (⟨2, ![100000, 128]⟩ : Shape).Idx),
      (z' 0).val = off + (y' 0).val → (z' 1).val = (y' 1).val → x y' = X z')
    (hs : ∀ (y' : (⟨2, ![4000, 1]⟩ : Shape).Idx) (z' : (⟨2, ![100000, 1]⟩ : Shape).Idx),
      (z' 0).val = off + (y' 0).val → (z' 1).val = (y' 1).val → s y' = S z') :
    Cert.Sage.layerMul a x s WL WR B y = Cert.Sage.layerMul A X S WL WR B z := by
  obtain ⟨p, c, rfl⟩ : ∃ (p : Fin 4000) (c : Fin 128), y = ix2 p c := ⟨y 0, y 1, eq_ix2 y⟩
  obtain ⟨p', c', rfl⟩ : ∃ (p' : Fin 100000) (c' : Fin 128), z = ix2 p' c' := ⟨z 0, z 1, eq_ix2 z⟩
  obtain rfl : c' = c := Fin.ext hz1
  exact Cert.Sage.layerMul_rows a x s A X S WL WR B p p' (fun k => ha (ix2 p k) (ix2 p' k) hz0 rfl)
    (fun k => hx (ix2 p k) (ix2 p' k) hz0 rfl) (hs (ix2 p 0) (ix2 p' 0) hz0 rfl) c'

variable (V : (c : Dev nD) → (b : Ref sig .tc) → Buf (Elt Ideal) ((c : Thread nD τ).loc b))

/-! ## The first layer's grid -/

/-- The index maps decided over the grid: the three row-blocked operands and the result move with the point, the
    weights and the bias stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The neighbour-sum block at point `t` is rows `4000 t … 4000 t + 3999` of its array. -/
theorem iblk0_0_apply (c : Dev nD) (t : Fin cfg0.N) (y : S4000x128.Idx) (z : S100000x128.Idx)
    (h0 : (z 0).val = 4000 * t.val + (y 0).val) (h1 : (z 1).val = (y 1).val) :
    (iblk0 V c 0 t : Vec Ideal S4000x128 .f32) y = (V c main_v22 : S100000x128.Idx → EReal) z := by
  obtain ⟨e0, e1, -⟩ := idx_facts0 t
  unfold iblk0
  rw [View.read_apply]
  show V c main_v22 _ = V c main_v22 _
  refine congrArg (V c main_v22) ?_
  funext a
  apply Fin.ext
  match a with
  | ⟨0, _⟩ => show win0_0.index t 0 * 4000 + 1 * (y 0).val = (z 0).val; rw [e0, h0]; omega
  | ⟨1, _⟩ => show win0_0.index t 1 * 128 + 1 * (y 1).val = (z 1).val; rw [e1, h1]; omega

/-- The own-rows block at point `t` is the same rows of its array. -/
theorem iblk0_1_apply (c : Dev nD) (t : Fin cfg0.N) (y : S4000x128.Idx) (z : S100000x128.Idx)
    (h0 : (z 0).val = 4000 * t.val + (y 0).val) (h1 : (z 1).val = (y 1).val) :
    (iblk0 V c 1 t : Vec Ideal S4000x128 .f32) y = (V c main_arg0 : S100000x128.Idx → EReal) z := by
  obtain ⟨-, -, e0, e1, -⟩ := idx_facts0 t
  unfold iblk0
  rw [View.read_apply]
  show V c main_arg0 _ = V c main_arg0 _
  refine congrArg (V c main_arg0) ?_
  funext a
  apply Fin.ext
  match a with
  | ⟨0, _⟩ => show win0_1.index t 0 * 4000 + 1 * (y 0).val = (z 0).val; rw [e0, h0]; omega
  | ⟨1, _⟩ => show win0_1.index t 1 * 128 + 1 * (y 1).val = (z 1).val; rw [e1, h1]; omega

/-- The reciprocal-count block at point `t` is the same rows of the column. -/
theorem iblk0_2_apply (c : Dev nD) (t : Fin cfg0.N) (y : S4000x1.Idx) (z : S100000x1.Idx)
    (h0 : (z 0).val = 4000 * t.val + (y 0).val) (h1 : (z 1).val = (y 1).val) :
    (iblk0 V c 2 t : Vec Ideal S4000x1 .f32) y = (V c main_v12 : S100000x1.Idx → EReal) z := by
  obtain ⟨-, -, -, -, e0, e1, -⟩ := idx_facts0 t
  unfold iblk0
  rw [View.read_apply]
  show V c main_v12 _ = V c main_v12 _
  refine congrArg (V c main_v12) ?_
  funext a
  apply Fin.ext
  match a with
  | ⟨0, _⟩ => show win0_2.index t 0 * 4000 + 1 * (y 0).val = (z 0).val; rw [e0, h0]; omega
  | ⟨1, _⟩ => show win0_2.index t 1 * 1 + 1 * (y 1).val = (z 1).val; rw [e1, h1]; omega

/-- The neighbour weights' one block is the whole matrix. -/
theorem iblk0_3_eq (c : Dev nD) (t : Fin cfg0.N) :
    (iblk0 V c 3 t : Vec Ideal S128x128 .f32) = (V c main_arg2 : S128x128.Idx → EReal) := by
  obtain ⟨-, -, -, -, -, -, e0, e1, -⟩ := idx_facts0 t
  funext y
  unfold iblk0
  rw [View.read_apply]
  show V c main_arg2 _ = V c main_arg2 _
  refine congrArg (V c main_arg2) ?_
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

/-- The own weights' one block is the whole matrix. -/
theorem iblk0_4_eq (c : Dev nD) (t : Fin cfg0.N) :
    (iblk0 V c 4 t : Vec Ideal S128x128 .f32) = (V c main_arg4 : S128x128.Idx → EReal) := by
  obtain ⟨-, -, -, -, -, -, -, -, e0, e1, -⟩ := idx_facts0 t
  funext y
  unfold iblk0
  rw [View.read_apply]
  show V c main_arg4 _ = V c main_arg4 _
  refine congrArg (V c main_arg4) ?_
  funext a
  apply Fin.ext
  match a with
  | ⟨0, _⟩ => show win0_4.index t 0 * 128 + 1 * (y 0).val = (y 0).val; rw [e0]; omega
  | ⟨1, _⟩ => show win0_4.index t 1 * 128 + 1 * (y 1).val = (y 1).val; rw [e1]; omega

/-- The bias's one block is the whole row. -/
theorem iblk0_5_eq (c : Dev nD) (t : Fin cfg0.N) :
    (iblk0 V c 5 t : Vec Ideal S1x128 .f32) = (V c main_v23 : S1x128.Idx → EReal) := by
  obtain ⟨-, -, -, -, -, -, -, -, -, -, e0, e1, -⟩ := idx_facts0 t
  funext y
  unfold iblk0
  rw [View.read_apply]
  show V c main_v23 _ = V c main_v23 _
  refine congrArg (V c main_v23) ?_
  funext a
  apply Fin.ext
  match a with
  | ⟨0, _⟩ => show win0_5.index t 0 * 1 + 1 * (y 0).val = (y 0).val; rw [e0]; omega
  | ⟨1, _⟩ => show win0_5.index t 1 * 128 + 1 * (y 1).val = (y 1).val; rw [e1]; omega

/-- An index of the result array is in point `t`'s block iff each coordinate is in the block's range on its axis. -/
theorem mem_blk0 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v24).slice (win0_6.rect t)).set ↔ _
  rw [View.set_slice_whole, Rect.mem_set_unit]
  exact Iff.rfl

/-- Every row of the result array is in the block of the point `row / 4000`, and every point writes back. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : grid0.N = 25 := N_0
  let t : Fin cfg0.N := ⟨(i 0).val / 4000, by show (i 0).val / 4000 < grid0.N; rw [hN]; omega⟩
  obtain ⟨-, -, -, -, -, -, -, -, -, -, -, -, e0, e1⟩ := idx_facts0 t
  have ht : t.val = (i 0).val / 4000 := rfl
  refine ⟨t, flush0_6 t, ?_⟩
  rw [mem_blk0]
  intro a
  match a with
  | ⟨0, _⟩ => show win0_6.index t 0 * 4000 ≤ (i 0).val ∧ (i 0).val < win0_6.index t 0 * 4000 + 4000; rw [e0, ht]; omega
  | ⟨1, _⟩ => show win0_6.index t 1 * 128 ≤ (i 1).val ∧ (i 1).val < win0_6.index t 1 * 128 + 128; rw [e1]; omega

/-! ## The second layer's grid -/

/-- The index maps decided over the grid: the three row-blocked operands and the result move with the point, the
    weights and the bias stay at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The neighbour-sum block at point `t` is rows `4000 t … 4000 t + 3999` of its array. -/
theorem iblk1_0_apply (c : Dev nD) (t : Fin cfg1.N) (y : S4000x128.Idx) (z : S100000x128.Idx)
    (h0 : (z 0).val = 4000 * t.val + (y 0).val) (h1 : (z 1).val = (y 1).val) :
    (iblk1 V c 0 t : Vec Ideal S4000x128 .f32) y = (V c main_v34 : S100000x128.Idx → EReal) z := by
  obtain ⟨e0, e1, -⟩ := idx_facts1 t
  unfold iblk1
  rw [View.read_apply]
  show V c main_v34 _ = V c main_v34 _
  refine congrArg (V c main_v34) ?_
  funext a
  apply Fin.ext
  match a with
  | ⟨0, _⟩ => show win1_0.index t 0 * 4000 + 1 * (y 0).val = (z 0).val; rw [e0, h0]; omega
  | ⟨1, _⟩ => show win1_0.index t 1 * 128 + 1 * (y 1).val = (z 1).val; rw [e1, h1]; omega

/-- The own-rows block at point `t` is the same rows of its array. -/
theorem iblk1_1_apply (c : Dev nD) (t : Fin cfg1.N) (y : S4000x128.Idx) (z : S100000x128.Idx)
    (h0 : (z 0).val = 4000 * t.val + (y 0).val) (h1 : (z 1).val = (y 1).val) :
    (iblk1 V c 1 t : Vec Ideal S4000x128 .f32) y = (V c main_v24 : S100000x128.Idx → EReal) z := by
  obtain ⟨-, -, e0, e1, -⟩ := idx_facts1 t
  unfold iblk1
  rw [View.read_apply]
  show V c main_v24 _ = V c main_v24 _
  refine congrArg (V c main_v24) ?_
  funext a
  apply Fin.ext
  match a with
  | ⟨0, _⟩ => show win1_1.index t 0 * 4000 + 1 * (y 0).val = (z 0).val; rw [e0, h0]; omega
  | ⟨1, _⟩ => show win1_1.index t 1 * 128 + 1 * (y 1).val = (z 1).val; rw [e1, h1]; omega

/-- The reciprocal-count block at point `t` is the same rows of the column. -/
theorem iblk1_2_apply (c : Dev nD) (t : Fin cfg1.N) (y : S4000x1.Idx) (z : S100000x1.Idx)
    (h0 : (z 0).val = 4000 * t.val + (y 0).val) (h1 : (z 1).val = (y 1).val) :
    (iblk1 V c 2 t : Vec Ideal S4000x1 .f32) y = (V c main_v12 : S100000x1.Idx → EReal) z := by
  obtain ⟨-, -, -, -, e0, e1, -⟩ := idx_facts1 t
  unfold iblk1
  rw [View.read_apply]
  show V c main_v12 _ = V c main_v12 _
  refine congrArg (V c main_v12) ?_
  funext a
  apply Fin.ext
  match a with
  | ⟨0, _⟩ => show win1_2.index t 0 * 4000 + 1 * (y 0).val = (z 0).val; rw [e0, h0]; omega
  | ⟨1, _⟩ => show win1_2.index t 1 * 1 + 1 * (y 1).val = (z 1).val; rw [e1, h1]; omega

/-- The neighbour weights' one block is the whole matrix. -/
theorem iblk1_3_eq (c : Dev nD) (t : Fin cfg1.N) :
    (iblk1 V c 3 t : Vec Ideal S128x128 .f32) = (V c main_arg5 : S128x128.Idx → EReal) := by
  obtain ⟨-, -, -, -, -, -, e0, e1, -⟩ := idx_facts1 t
  funext y
  unfold iblk1
  rw [View.read_apply]
  show V c main_arg5 _ = V c main_arg5 _
  refine congrArg (V c main_arg5) ?_
  funext a
  apply Fin.ext
  match a with
  | ⟨0, _⟩ => show win1_3.index t 0 * 128 + 1 * (y 0).val = (y 0).val; rw [e0]; omega
  | ⟨1, _⟩ => show win1_3.index t 1 * 128 + 1 * (y 1).val = (y 1).val; rw [e1]; omega

/-- The own weights' one block is the whole matrix. -/
theorem iblk1_4_eq (c : Dev nD) (t : Fin cfg1.N) :
    (iblk1 V c 4 t : Vec Ideal S128x128 .f32) = (V c main_arg7 : S128x128.Idx → EReal) := by
  obtain ⟨-, -, -, -, -, -, -, -, e0, e1, -⟩ := idx_facts1 t
  funext y
  unfold iblk1
  rw [View.read_apply]
  show V c main_arg7 _ = V c main_arg7 _
  refine congrArg (V c main_arg7) ?_
  funext a
  apply Fin.ext
  match a with
  | ⟨0, _⟩ => show win1_4.index t 0 * 128 + 1 * (y 0).val = (y 0).val; rw [e0]; omega
  | ⟨1, _⟩ => show win1_4.index t 1 * 128 + 1 * (y 1).val = (y 1).val; rw [e1]; omega

/-- The bias's one block is the whole row. -/
theorem iblk1_5_eq (c : Dev nD) (t : Fin cfg1.N) :
    (iblk1 V c 5 t : Vec Ideal S1x128 .f32) = (V c main_v35 : S1x128.Idx → EReal) := by
  obtain ⟨-, -, -, -, -, -, -, -, -, -, e0, e1, -⟩ := idx_facts1 t
  funext y
  unfold iblk1
  rw [View.read_apply]
  show V c main_v35 _ = V c main_v35 _
  refine congrArg (V c main_v35) ?_
  funext a
  apply Fin.ext
  match a with
  | ⟨0, _⟩ => show win1_5.index t 0 * 1 + 1 * (y 0).val = (y 0).val; rw [e0]; omega
  | ⟨1, _⟩ => show win1_5.index t 1 * 128 + 1 * (y 1).val = (y 1).val; rw [e1]; omega

/-- An index of the result array is in point `t`'s block iff each coordinate is in the block's range on its axis. -/
theorem mem_blk1 (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v36).slice (win1_6.rect t)).set ↔ _
  rw [View.set_slice_whole, Rect.mem_set_unit]
  exact Iff.rfl

/-- Every row of the result array is in the block of the point `row / 4000`, and every point writes back. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : grid1.N = 25 := N_1
  let t : Fin cfg1.N := ⟨(i 0).val / 4000, by show (i 0).val / 4000 < grid1.N; rw [hN]; omega⟩
  obtain ⟨-, -, -, -, -, -, -, -, -, -, -, -, e0, e1⟩ := idx_facts1 t
  have ht : t.val = (i 0).val / 4000 := rfl
  refine ⟨t, flush1_6 t, ?_⟩
  rw [mem_blk1]
  intro a
  match a with
  | ⟨0, _⟩ => show win1_6.index t 0 * 4000 ≤ (i 0).val ∧ (i 0).val < win1_6.index t 0 * 4000 + 4000; rw [e0, ht]; omega
  | ⟨1, _⟩ => show win1_6.index t 1 * 128 ≤ (i 1).val ∧ (i 1).val < win1_6.index t 1 * 128 + 128; rw [e1]; omega

end Cert.KernelIdeal.SageBlocks

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«154690_j45655502356568_2_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«154690_j45655502356568_2_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibLayout3.lean ====
/-
  Layout operations and one-axis reductions read at an index written by coordinates (a general lemma file: it imports
  only the library and is generic in the extents).

  A tile of the kernel works with three index sets: (row, column) pairs, (row, column, coordinate) triples for the
  distances, and (row, positive, negative) triples for the mining step. The programs move between them by inserting a
  unit axis and broadcasting along it, and come back by reducing over the last axis. Each lemma here says which entry of
  the operand one entry of the result reads, with every index spelt by its coordinates.
-/
import Idealize.ShloMosaic.Lib.ValueLayout
import Idealize.ShloMosaic.PureOps.Ideal.Laws

open scoped BigOperators

namespace Cert.LibLayout3

open Idealize.ShloMosaic Idealize.ShloMosaic.ValueIdx

section Casts
variable {α : Type}

/-- An [a, c] array viewed as [a, 1, c] reads, at (r, u, d), the operand at (r, d). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (d : Fin c) :
    shapeCast ⟨3, ![a, 1, c]⟩ x h (ix3 r u d) = x (ix2 r d) :=
  shapeCast_apply x h _ _ (by
    have hu : u.val = 0 := by omega
    rw [Shape.rowMajor_val_three, Shape.rowMajor_val_two]
    show r.val * c + d.val = (r.val * 1 + u.val) * c + d.val
    rw [hu, Nat.mul_one, Nat.add_zero])

/-- An [a, b] array viewed as [a, b, 1] reads, at (r, j, u), the operand at (r, j). -/
theorem shapeCast_ab_ab1_apply {a b : ℕ} (x : (⟨2, ![a, b]⟩ : Shape).Idx → α)
    (h : (⟨2, ![a, b]⟩ : Shape).ShapeCasts ⟨3, ![a, b, 1]⟩) (r : Fin a) (j : Fin b) (u : Fin 1) :
    shapeCast ⟨3, ![a, b, 1]⟩ x h (ix3 r j u) = x (ix2 r j) :=
  shapeCast_apply x h _ _ (by
    have hu : u.val = 0 := by omega
    rw [Shape.rowMajor_val_three, Shape.rowMajor_val_two]
    show r.val * b + j.val = (r.val * b + j.val) * 1 + u.val
    rw [hu, Nat.mul_one, Nat.add_zero])

/-- A vector [a] viewed as the column [a, 1] reads, at (r, u), the operand at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Casts

section Broadcasts
variable {α : Type}

/-- A column [a, 1] broadcast to [a, b] reads, at (r, j), the column at r. -/
theorem broadcastTo_a1_ab_apply {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- An [a, 1, c] array broadcast along its middle axis to [a, b, c] reads, at (r, j, d), the operand at (r, 0, d). -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (j : Fin b) (d : Fin c) :
    broadcastTo ⟨3, ![a, b, c]⟩ v h (ix3 r j d) = v (ix3 r (0 : Fin 1) d) := by
  refine broadcastTo_apply v h (ix3 r j d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if c = 1 then 0 else d.val
    split
    · have := d.isLt; omega
    · rfl

/-- A [1, b, c] array broadcast along its first axis to [a, b, c] reads, at (r, j, d), the operand at (0, j, d). -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (j : Fin b) (d : Fin c) :
    broadcastTo ⟨3, ![a, b, c]⟩ v h (ix3 r j d) = v (ix3 (0 : Fin 1) j d) := by
  refine broadcastTo_apply v h (ix3 r j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- An [a, b, 1] array broadcast along its last axis to [a, b, c] reads, at (r, j, k), the operand at (r, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (j : Fin b) (k : Fin c) :
    broadcastTo ⟨3, ![a, b, c]⟩ v h (ix3 r j k) = v (ix3 r j (0 : Fin 1)) := by
  refine broadcastTo_apply v h (ix3 r j k) (ix3 r j (0 : Fin 1)) fun ax => ?_
  match ax with
  | ⟨0, _⟩ =>
    show r.val = if a = 1 then 0 else r.val
    split
    · have := r.isLt; omega
    · rfl
  | ⟨1, _⟩ =>
    show j.val = if b = 1 then 0 else j.val
    split
    · have := j.isLt; omega
    · rfl
  | ⟨2, _⟩ => rfl

end Broadcasts

/-! ## The index a one-axis reduction inserts, by coordinates -/

section Lift

/-- Over [a, b, c] reduced along its last axis, the index above (r, j) with coordinate d is (r, j, d). -/
theorem lift_abc_last {a b c : ℕ} (h : Shape.Reduces ⟨3, ![a, b, c]⟩ [2] ⟨2, ![a, b]⟩) (r : Fin a) (j : Fin b) (d : Fin c) :
    h.lift (ix2 r j) d = ix3 r j d := by
  funext x
  match x with
  | ⟨0, _⟩ => exact Fin.ext rfl
  | ⟨1, _⟩ => exact Fin.ext rfl
  | ⟨2, _⟩ => exact Fin.ext rfl

/-- Over [a, b] reduced along its columns, the index above r with coordinate j is (r, j). -/
theorem lift_ab_last {a b : ℕ} (h : Shape.Reduces ⟨2, ![a, b]⟩ [1] ⟨1, ![a]⟩) (r : Fin a) (j : Fin b) :
    h.lift (ix1 r) j = ix2 r j := by
  funext x
  match x with
  | ⟨0, _⟩ => exact Fin.ext rfl
  | ⟨1, _⟩ => exact Fin.ext rfl

/-- Over the column [a, 1] reduced along its rows, the index above u with coordinate r is (r, u). -/
theorem lift_a1_first {a : ℕ} (h : Shape.Reduces ⟨2, ![a, 1]⟩ [0] ⟨1, ![1]⟩) (u : Fin 1) (r : Fin a) :
    h.lift (ix1 u) r = ix2 r u := by
  funext x
  match x with
  | ⟨0, _⟩ => exact Fin.ext rfl
  | ⟨1, _⟩ => exact Fin.ext rfl

end Lift

/-! ## One-axis reductions over the extended reals

The sum of a lane is a plain finite sum; a maximum or a minimum is the fold of max or min over the lane's
coordinates, started from the value of the accumulator's word. The reduced axis is written as an element of a literal
Fin type (Fin 2 or Fin 3), the rank of the array being reduced. -/

section Reductions

/-- A minimum over one axis is the fold of min over that axis's coordinates, from the accumulator's value. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum over the last axis of an [a, b, c] array, at (r, j). -/
theorem sum_abc_last {a b c : ℕ} (src : FVec Ideal ⟨3, ![a, b, c]⟩ .f32)
    (h : Shape.Reduces ⟨3, ![a, b, c]⟩ [2] ⟨2, ![a, b]⟩) (hacc : (0x00000000#32 : BitVec 32) = 0x00000000#32)
    (r : Fin a) (j : Fin b) :
    multiReduction (s := ⟨3, ![a, b, c]⟩) .add ([2] : List (Fin 3)) ⟨2, ![a, b]⟩ src 0x00000000#32 h (.inl rfl) hacc (ix2 r j)
      = ∑ d : Fin c, src (ix3 r j d) :=
  (Ideal.multiReduction_add_single src 0x00000000#32 h (.inl rfl) hacc (ix2 r j)).trans
    (Finset.sum_congr rfl fun d _ => congrArg src (lift_abc_last h r j d))

/-- The sum over the columns of an [a, b] array, at r. -/
theorem sum_ab_last {a b : ℕ} (src : FVec Ideal ⟨2, ![a, b]⟩ .f32)
    (h : Shape.Reduces ⟨2, ![a, b]⟩ [1] ⟨1, ![a]⟩) (hacc : (0x00000000#32 : BitVec 32) = 0x00000000#32) (r : Fin a) :
    multiReduction (s := ⟨2, ![a, b]⟩) .add ([1] : List (Fin 2)) ⟨1, ![a]⟩ src 0x00000000#32 h (.inl rfl) hacc (ix1 r)
      = ∑ j : Fin b, src (ix2 r j) :=
  (Ideal.multiReduction_add_single src 0x00000000#32 h (.inl rfl) hacc (ix1 r)).trans
    (Finset.sum_congr rfl fun j _ => congrArg src (lift_ab_last h r j))

/-- The sum over the rows of a column [a, 1], at its one index. -/
theorem sum_a1_first {a : ℕ} (src : FVec Ideal ⟨2, ![a, 1]⟩ .f32)
    (h : Shape.Reduces ⟨2, ![a, 1]⟩ [0] ⟨1, ![1]⟩) (hacc : (0x00000000#32 : BitVec 32) = 0x00000000#32) (u : Fin 1) :
    multiReduction (s := ⟨2, ![a, 1]⟩) .add ([0] : List (Fin 2)) ⟨1, ![1]⟩ src 0x00000000#32 h (.inl rfl) hacc (ix1 u)
      = ∑ r : Fin a, src (ix2 r u) :=
  (Ideal.multiReduction_add_single src 0x00000000#32 h (.inl rfl) hacc (ix1 u)).trans
    (Finset.sum_congr rfl fun r _ => congrArg src (lift_a1_first h u r))

/-- The maximum over the columns of an [a, b] array, at r. -/
theorem max_ab_last {a b : ℕ} (src : FVec Ideal ⟨2, ![a, b]⟩ .f32)
    (h : Shape.Reduces ⟨2, ![a, b]⟩ [1] ⟨1, ![a]⟩) (hacc : (0xFF800000#32 : BitVec 32) = 0xFF800000#32) (r : Fin a) :
    multiReduction (s := ⟨2, ![a, b]⟩) .maximumf ([1] : List (Fin 2)) ⟨1, ![a]⟩ src 0xFF800000#32 h (.inl rfl) hacc (ix1 r)
      = (Finset.univ : Finset (Fin b)).fold max (Ideal.ofBits .f32 0xFF800000#32) (fun j => src (ix2 r j)) :=
  (Ideal.multiReduction_maximumf_single src 0xFF800000#32 h (.inl rfl) hacc (ix1 r)).trans
    (Finset.fold_congr fun j _ => congrArg src (lift_ab_last h r j))

/-- The minimum over the columns of an [a, b] array, at r. -/
theorem min_ab_last {a b : ℕ} (src : FVec Ideal ⟨2, ![a, b]⟩ .f32)
    (h : Shape.Reduces ⟨2, ![a, b]⟩ [1] ⟨1, ![a]⟩) (hacc : (0x7F800000#32 : BitVec 32) = 0x7F800000#32) (r : Fin a) :
    multiReduction (s := ⟨2, ![a, b]⟩) .minimumf ([1] : List (Fin 2)) ⟨1, ![a]⟩ src 0x7F800000#32 h (.inl rfl) hacc (ix1 r)
      = (Finset.univ : Finset (Fin b)).fold min (Ideal.ofBits .f32 0x7F800000#32) (fun j => src (ix2 r j)) :=
  (multiReduction_minimumf_single src 0x7F800000#32 h (.inl rfl) hacc (ix1 r)).trans
    (Finset.fold_congr fun j _ => congrArg src (lift_ab_last h r j))

/-- The minimum over the last axis of an [a, b, c] array, at (r, j). -/
theorem min_abc_last {a b c : ℕ} (src : FVec Ideal ⟨3, ![a, b, c]⟩ .f32)
    (h : Shape.Reduces ⟨3, ![a, b, c]⟩ [2] ⟨2, ![a, b]⟩) (hacc : (0x7F800000#32 : BitVec 32) = 0x7F800000#32)
    (r : Fin a) (j : Fin b) :
    multiReduction (s := ⟨3, ![a, b, c]⟩) .minimumf ([2] : List (Fin 3)) ⟨2, ![a, b]⟩ src 0x7F800000#32 h (.inl rfl) hacc (ix2 r j)
      = (Finset.univ : Finset (Fin c)).fold min (Ideal.ofBits .f32 0x7F800000#32) (fun k => src (ix3 r j k)) :=
  (multiReduction_minimumf_single src 0x7F800000#32 h (.inl rfl) hacc (ix2 r j)).trans
    (Finset.fold_congr fun k _ => congrArg src (lift_abc_last h r j k))

end Reductions

end Cert.LibLayout3
-- ==== Proof.KernelPay.lean ====
/-
  What the two kernel bodies compute, entry by entry, over the extended reals.

  Both bodies take a block of 4000 nodes: the array `a` of the sums of the neighbours' feature rows [4000, 128], the
  column `s` of reciprocal neighbour counts [4000, 1], the array `x` of the nodes' own rows [4000, 128], two weight
  matrices `wl`, `wr` [128, 128] and a bias row `b` [1, 128].

  First they form the array `u` whose entry (p, c) is
      (∑ k, (a (p, k) · s (p, 0)) · wl (k, c)) + (∑ k, x (p, k) · wr (k, c)) + b (0, c):
  the column `s` is spread along the rows and multiplied in, the two products are matrix products into a zero
  accumulator (over the extended reals the narrowing of the operands to a shorter format changes nothing), and the
  bias row is spread down the columns and added last.  That is the row `preMul` of node p, read at c.

  Then every row is divided by the larger of its Euclidean length and a small positive level: the squares are summed
  along each row, the vector of the 4000 sums is viewed as a column, its square root is taken, the larger of it and
  the level is spread along the rows, and `u` is divided by it entry by entry.  Entry (p, c) is `u (p, c)` divided by
  `max (sqrt (∑ j, u (p, j) · u (p, j))) eps`: the row `nrm` of row p of `u`, read at c.

  The second body stops there.  The first body then takes the larger of every entry and zero.
-/
import proofs.«154690_j45655502356568_2_alg».proof.Proof.Gen.KernelIdeal.Skeleton
import proofs.«154690_j45655502356568_2_alg».proof.Proof.LibBlockDot
import proofs.«154690_j45655502356568_2_alg».proof.Proof.LibLayout3
import proofs.«154690_j45655502356568_2_alg».proof.Proof.SageRow
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.SagePay

open Cert.KernelIdeal Cert.KernelIdeal.Gen Idealize.ShloMosaic Idealize.ShloMosaic.ValueIdx

/-- The program's matrix-product record contracts the left operand's columns with the right operand's rows and has
    no batch axes: it is the plain record. -/
theorem dot_eq_plain : dot_S4000x128_S128x128_S4000x128_1_0_0_1_n_n = DotDims.plain 4000 128 128 := rfl

/-! ## The array before normalisation -/

/-- The array `u`: the scaled neighbour sums through `wl`, plus the own rows through `wr`, plus the bias row. -/
def preArr (a x : FVec Ideal S4000x128 .f32) (s : FVec Ideal S4000x1 .f32) (wl wr : FVec Ideal S128x128 .f32)
    (b : FVec Ideal S1x128 .f32) : FVec Ideal S4000x128 .f32 :=
  addf
    (addf
      (matmul (DotDims.plain 4000 128 128) none
        (truncf .bf16 (mulf (shapeCast S4000x128 a shapeCasts_S4000x128_S4000x128)
          (broadcastTo S4000x128 (shapeCast S4000x1 s shapeCasts_S4000x1_S4000x1) broadcasts_S4000x1_S4000x128))
          bitsLt_bf16_f32)
        (truncf .bf16 wl bitsLt_bf16_f32) (constant (F := Ideal) S4000x128 .f32 0x00000000#32))
      (matmul (DotDims.plain 4000 128 128) none (truncf .bf16 x bitsLt_bf16_f32) (truncf .bf16 wr bitsLt_bf16_f32)
        (constant (F := Ideal) S4000x128 .f32 0x00000000#32)))
    (broadcastTo S4000x128 (shapeCast S1x128 b shapeCasts_S1x128_S1x128) broadcasts_S1x128_S4000x128)

/-- Entry (p, c) of `u` is the row `preMul` of node p at c. -/
theorem preArr_apply (a x : FVec Ideal S4000x128 .f32) (s : FVec Ideal S4000x1 .f32) (wl wr : FVec Ideal S128x128 .f32)
    (b : FVec Ideal S1x128 .f32) (p : Fin 4000) (c : Fin 128) :
    preArr a x s wl wr b (ix2 p c)
      = Cert.Sage.preMul (fun k => a (ix2 p k)) (fun k => x (ix2 p k)) (s (ix2 p (0 : Fin 1)))
          (fun k j => wl (ix2 k j)) (fun k j => wr (ix2 k j)) (fun j => b (ix2 (0 : Fin 1) j)) c := by
  unfold Cert.Sage.preMul
  refine congrArg₂ (· + ·) (congrArg₂ (· + ·) ?_ ?_) ?_
  · refine (Cert.BlockDot.kdot_apply none _ _ p c).trans (Finset.sum_congr rfl fun k _ => ?_)
    show (shapeCast S4000x128 a shapeCasts_S4000x128_S4000x128 (ix2 p k)
          * broadcastTo S4000x128 (shapeCast S4000x1 s shapeCasts_S4000x1_S4000x1) broadcasts_S4000x1_S4000x128 (ix2 p k))
        * wl (ix2 k c) = (a (ix2 p k) * s (ix2 p (0 : Fin 1))) * wl (ix2 k c)
    refine congrArg (· * wl (ix2 k c)) (congrArg₂ (· * ·) ?_ ?_)
    · exact congrFun (shapeCast_self a shapeCasts_S4000x128_S4000x128) (ix2 p k)
    · refine (Cert.LibLayout3.broadcastTo_a1_ab_apply _ broadcasts_S4000x1_S4000x128 p k).trans ?_
      exact congrFun (shapeCast_self s shapeCasts_S4000x1_S4000x1) (ix2 p (0 : Fin 1))
  · exact (Cert.BlockDot.kdot_apply none _ _ p c).trans (Finset.sum_congr rfl fun k _ => rfl)
  · refine (broadcastTo_1b_ab_apply _ broadcasts_S1x128_S4000x128 p c).trans ?_
    exact congrFun (shapeCast_self b shapeCasts_S1x128_S1x128) (ix2 (0 : Fin 1) c)

/-! ## Dividing every row by the larger of its length and the level -/

/-- Every row of `u` divided by the larger of its Euclidean length and the level. -/
def nrmArr (u : FVec Ideal S4000x128 .f32) : FVec Ideal S4000x128 .f32 :=
  divf u
    (broadcastTo S4000x128
      (maximumf
        (sqrt (shapeCast S4000x1
          (multiReduction .add [1] S4000 (mulf u u) 0x00000000#32 reduces_S4000x128_S4000 (.inl rfl) rfl)
          shapeCasts_S4000_S4000x1))
        (broadcast S4000x1 (Scalar.ofBits (F := Ideal) .f32 0x2B8CBCCC#32)))
      broadcasts_S4000x1_S4000x128)

/-- The sum of the squares along row p. -/
theorem sumsq_apply (u : FVec Ideal S4000x128 .f32) (p : Fin 4000) :
    multiReduction .add [1] S4000 (mulf u u) 0x00000000#32 reduces_S4000x128_S4000 (.inl rfl) rfl (ix1 p)
      = ∑ j : Fin 128, u (ix2 p j) * u (ix2 p j) :=
  Cert.LibLayout3.sum_ab_last (mulf u u) reduces_S4000x128_S4000 rfl p

/-- The divisor of row p: the larger of the row's length and the level, at every column. -/
theorem divisor_apply (u : FVec Ideal S4000x128 .f32) (p : Fin 4000) (c : Fin 128) :
    broadcastTo S4000x128
      (maximumf
        (sqrt (shapeCast S4000x1
          (multiReduction .add [1] S4000 (mulf u u) 0x00000000#32 reduces_S4000x128_S4000 (.inl rfl) rfl)
          shapeCasts_S4000_S4000x1))
        (broadcast S4000x1 (Scalar.ofBits (F := Ideal) .f32 0x2B8CBCCC#32)))
      broadcasts_S4000x1_S4000x128 (ix2 p c)
      = max (Ideal.sqrt (∑ j : Fin 128, u (ix2 p j) * u (ix2 p j))) Cert.Sage.eps := by
  refine (Cert.LibLayout3.broadcastTo_a1_ab_apply _ broadcasts_S4000x1_S4000x128 p c).trans ?_
  refine congrArg₂ max (congrArg Ideal.sqrt ?_) rfl
  exact (Cert.LibLayout3.shapeCast_a_a1_apply _ shapeCasts_S4000_S4000x1 p (0 : Fin 1)).trans (sumsq_apply u p)

/-- Entry (p, c) of the normalised array is the row `nrm` of row p of `u`, at c. -/
theorem nrmArr_apply (u : FVec Ideal S4000x128 .f32) (p : Fin 4000) (c : Fin 128) :
    nrmArr u (ix2 p c) = Cert.Sage.nrm (fun k => u (ix2 p k)) c :=
  congrArg (Ideal.div (u (ix2 p c))) (divisor_apply u p c)

/-! ## The two bodies -/

/-- The first body: normalise, then take the larger of each entry and zero. -/
theorem k0_unfold (v0 : Vec Ideal S4000x128 .f32) (v2 : Vec Ideal S4000x1 .f32) (v7 : Vec Ideal S4000x128 .f32)
    (v9 v11 : Vec Ideal S128x128 .f32) (v16 : Vec Ideal S1x128 .f32) :
    k0_pay1 (F := Ideal) v0 v2 v7 v9 v11 v16
      = maximumf (nrmArr (preArr v0 v7 v2 v9 v11 v16))
          (broadcast S4000x128 (Scalar.ofBits (F := Ideal) .f32 0x00000000#32)) := rfl

/-- The second body: normalise; the own rows pass through a cast to their own shape first. -/
theorem k1_unfold (v0 : Vec Ideal S4000x128 .f32) (v2 : Vec Ideal S4000x1 .f32) (v7 : Vec Ideal S4000x128 .f32)
    (v10 v12 : Vec Ideal S128x128 .f32) (v17 : Vec Ideal S1x128 .f32) :
    k1_pay1 (F := Ideal) v0 v2 v7 v10 v12 v17
      = nrmArr (preArr v0 (shapeCast S4000x128 v7 shapeCasts_S4000x128_S4000x128) v2 v10 v12 v17) := rfl

theorem pay0_eq (v0 : Vec Ideal S4000x128 .f32) (v2 : Vec Ideal S4000x1 .f32) (v7 : Vec Ideal S4000x128 .f32)
    (v9 v11 : Vec Ideal S128x128 .f32) (v16 : Vec Ideal S1x128 .f32) :
    k0_pay1 (F := Ideal) v0 v2 v7 v9 v11 v16
      = fun i => max (Cert.Sage.layerMul (R := 4000) v0 v7 v2 v9 v11 v16 i) Cert.Sage.zero := by
  funext i
  obtain ⟨p, c, rfl⟩ : ∃ (p : Fin 4000) (c : Fin 128), i = ix2 p c := ⟨i 0, i 1, eq_ix2 i⟩
  rw [k0_unfold, Cert.Sage.layerMul_apply]
  refine congrArg₂ max ?_ rfl
  refine (nrmArr_apply _ p c).trans ?_
  exact congrArg (fun r => Cert.Sage.nrm r c) (funext fun j => preArr_apply v0 v7 v2 v9 v11 v16 p j)

theorem pay1_eq (v0 : Vec Ideal S4000x128 .f32) (v2 : Vec Ideal S4000x1 .f32) (v7 : Vec Ideal S4000x128 .f32)
    (v10 v12 : Vec Ideal S128x128 .f32) (v17 : Vec Ideal S1x128 .f32) :
    k1_pay1 (F := Ideal) v0 v2 v7 v10 v12 v17 = Cert.Sage.layerMul (R := 4000) v0 v7 v2 v10 v12 v17 := by
  funext i
  obtain ⟨p, c, rfl⟩ : ∃ (p : Fin 4000) (c : Fin 128), i = ix2 p c := ⟨i 0, i 1, eq_ix2 i⟩
  rw [k1_unfold, Cert.Sage.layerMul_apply, shapeCast_self]
  refine (nrmArr_apply _ p c).trans ?_
  exact congrArg (fun r => Cert.Sage.nrm r c) (funext fun j => preArr_apply v0 v7 v2 v10 v12 v17 p j)

end Cert.KernelIdeal.SagePay

end
-- ==== Proof.Final.lean ====
/-
  What each grid of the kernel program leaves in its result array.

  A point's body computes, from its blocks of rows, the layer of those rows (followed, in the first grid, by the
  rectifier); by the row-locality of the layer this is the point's block of the layer of the whole arrays, and since
  the blocks tile the result array, the array ends holding the layer of the whole arrays the grid found at its entry.
-/
import proofs.«154690_j45655502356568_2_alg».proof.Proof.FinalBlocks
import proofs.«154690_j45655502356568_2_alg».proof.Proof.KernelPay

set_option maxRecDepth 16384

noncomputable section

namespace Cert.KernelIdeal.SageFinal

open Cert.KernelIdeal Cert.KernelIdeal.Gen Cert.KernelIdeal.SageBlocks Cert.KernelIdeal.SagePay Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What the first grid leaves in its result array, as one function of the arrays it reads. -/
def G0 (A X : S100000x128.Idx → EReal) (S : S100000x1.Idx → EReal) (WL WR : S128x128.Idx → EReal) (B : S1x128.Idx → EReal) :
    S100000x128.Idx → EReal :=
  fun i => max (Cert.Sage.layerMul (R := 100000) A X S WL WR B i) Cert.Sage.zero

/-- What point `t` writes back is its block of that function of the arrays as the grid finds them. -/
theorem flushed0_eq (c : Dev nD) (t : Fin cfg0.N) :
    (dat0 V c).flushed 6 t = ((cfg0.win 6).blk t).view.read (Elt Ideal)
      (G0 (V c main_v22) (V c main_arg0) (V c main_v12) (V c main_arg2) (V c main_arg4) (V c main_v23)) := by
  show (cfg0.win 6).cut (grid0.coords t) ((dat0 V c).after 6 t) = _
  rw [after0_6]
  unfold out0_6
  rw [View.canon_unit_zero hz]
  simp only [View.ld_unit_zero (S := S4000x128) hz, View.ld_unit_zero (S := S4000x1) hz, View.ld_unit_zero (S := S128x128) hz,
    View.ld_unit_zero (S := S1x128) hz]
  rw [pay0_eq, iblk0_3_eq V c t, iblk0_4_eq V c t, iblk0_5_eq V c t]
  obtain ⟨-, -, -, -, -, -, -, -, -, -, -, -, e0, e1⟩ := idx_facts0 t
  funext j
  show max (Cert.Sage.layerMul (R := 4000) (iblk0 V c 0 t) (iblk0 V c 1 t) (iblk0 V c 2 t) (V c main_arg2) (V c main_arg4) (V c main_v23) j) Cert.Sage.zero
    = max (Cert.Sage.layerMul (R := 100000) (V c main_v22) (V c main_arg0) (V c main_v12) (V c main_arg2) (V c main_arg4) (V c main_v23) (((cfg0.win 6).blk t).view.emb j)) Cert.Sage.zero
  refine congrArg (fun u => max u Cert.Sage.zero) ?_
  refine block_layer _ _ _ _ _ _ _ _ _ (4000 * t.val) j _ ?_ ?_ (fun y' z' h0 h1 => iblk0_0_apply V c t y' z' h0 h1)
    (fun y' z' h0 h1 => iblk0_1_apply V c t y' z' h0 h1) (fun y' z' h0 h1 => iblk0_2_apply V c t y' z' h0 h1)
  · show win0_6.index t 0 * 4000 + 1 * (j 0).val = 4000 * t.val + (j 0).val
    rw [e0]; omega
  · show win0_6.index t 1 * 128 + 1 * (j 1).val = (j 1).val
    rw [e1]; omega

/-- The 25 blocks tile the result array, so it ends holding that function. -/
theorem final0 (c : Dev nD) : (dat0 V c).arrAt 6 cfg0.N
    = G0 (V c main_v22) (V c main_arg0) (V c main_v12) (V c main_arg2) (V c main_arg4) (V c main_v23) :=
  (dat0 V c).arrAt_eq_of_cover 6 _ (fun t _ => flushed0_eq V c t) (cover0)

/-- What the second grid leaves in its result array, as one function of the arrays it reads. -/
def G1 (A X : S100000x128.Idx → EReal) (S : S100000x1.Idx → EReal) (WL WR : S128x128.Idx → EReal) (B : S1x128.Idx → EReal) :
    S100000x128.Idx → EReal :=
  Cert.Sage.layerMul (R := 100000) A X S WL WR B

/-- What point `t` writes back is its block of that function of the arrays as the grid finds them. -/
theorem flushed1_eq (c : Dev nD) (t : Fin cfg1.N) :
    (dat1 V c).flushed 6 t = ((cfg1.win 6).blk t).view.read (Elt Ideal)
      (G1 (V c main_v34) (V c main_v24) (V c main_v12) (V c main_arg5) (V c main_arg7) (V c main_v35)) := by
  show (cfg1.win 6).cut (grid1.coords t) ((dat1 V c).after 6 t) = _
  rw [after1_6]
  unfold out1_6
  rw [View.canon_unit_zero hz]
  simp only [View.ld_unit_zero (S := S4000x128) hz, View.ld_unit_zero (S := S4000x1) hz, View.ld_unit_zero (S := S128x128) hz,
    View.ld_unit_zero (S := S1x128) hz]
  rw [pay1_eq, iblk1_3_eq V c t, iblk1_4_eq V c t, iblk1_5_eq V c t]
  obtain ⟨-, -, -, -, -, -, -, -, -, -, -, -, e0, e1⟩ := idx_facts1 t
  funext j
  show Cert.Sage.layerMul (R := 4000) (iblk1 V c 0 t) (iblk1 V c 1 t) (iblk1 V c 2 t) (V c main_arg5) (V c main_arg7) (V c main_v35) j
    = Cert.Sage.layerMul (R := 100000) (V c main_v34) (V c main_v24) (V c main_v12) (V c main_arg5) (V c main_arg7) (V c main_v35) (((cfg1.win 6).blk t).view.emb j)
  refine block_layer _ _ _ _ _ _ _ _ _ (4000 * t.val) j _ ?_ ?_ (fun y' z' h0 h1 => iblk1_0_apply V c t y' z' h0 h1)
    (fun y' z' h0 h1 => iblk1_1_apply V c t y' z' h0 h1) (fun y' z' h0 h1 => iblk1_2_apply V c t y' z' h0 h1)
  · show win1_6.index t 0 * 4000 + 1 * (j 0).val = 4000 * t.val + (j 0).val
    rw [e0]; omega
  · show win1_6.index t 1 * 128 + 1 * (j 1).val = (j 1).val
    rw [e1]; omega

/-- The 25 blocks tile the result array, so it ends holding that function. -/
theorem final1 (c : Dev nD) : (dat1 V c).arrAt 6 cfg1.N
    = G1 (V c main_v34) (V c main_v24) (V c main_v12) (V c main_arg5) (V c main_arg7) (V c main_v35) :=
  (dat1 V c).arrAt_eq_of_cover 6 _ (fun t _ => flushed1_eq V c t) (cover1)

end Cert.KernelIdeal.SageFinal

end
-- ==== Proof.KernelHost.lean ====
/-
  The host operations of the kernel program as functions of whole arrays, and the buffer contents at the two grids'
  entries read through them.

  Before the first grid the host slices the edge list into sources and destinations, counts every node's in-edges
  (ones scatter-added at the destinations), takes the reciprocal of the larger of the count and one as a column, adds
  for every node the argument rows of its in-neighbours (gather at the sources, scatter-add at the destinations), and
  views the first bias as one row.  Between the grids it repeats the neighbour sum on the first grid's result and views
  the second bias as one row.  The definitions spell the operations as the printed program does, so each buffer's
  contents at a grid's entry is one of these functions of earlier contents by evaluating the host operations in order.
-/
import proofs.«154690_j45655502356568_2_alg».proof.Proof.Gen.KernelIdeal.Frame
import Idealize.ShloMosaic.Lib.StableHlo.Run

set_option maxRecDepth 16384

noncomputable section

namespace Cert.KernelIdeal.SageHost

open Cert.KernelIdeal Cert.KernelIdeal.Gen Idealize.ShloMosaic Idealize.ShloMosaic.TcCoe Idealize.SL.Sem Idealize.ShloMosaic.StableHlo

variable {F : FTy → Type} [FloatOps F]

/-- The source node of every edge (row 0 of the edge list). -/
def src (x1 : (⟨S2x1600000, .i32⟩ : BufTy).Contents (Elt F)) : (⟨S1600000, .i32⟩ : BufTy).Contents (Elt F) :=
  shapeCast _ (extractStridedSlice S1x1600000 ![0, 0] x1 slices_S2x1600000_S1x1600000_0_0) shapeCasts_S1x1600000_S1600000

/-- The destination node of every edge (row 1 of the edge list). -/
def dst (x1 : (⟨S2x1600000, .i32⟩ : BufTy).Contents (Elt F)) : (⟨S1600000, .i32⟩ : BufTy).Contents (Elt F) :=
  shapeCast _ (extractStridedSlice S1x1600000 ![1, 0] x1 slices_S2x1600000_S1x1600000_1_0) shapeCasts_S1x1600000_S1600000

/-- For every node, the sum of the rows of `h` at the sources of the edges that end at it. -/
def sagg (h : (⟨S100000x128, .f32⟩ : BufTy).Contents (Elt F)) (s d : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- For every node, the number of edges that end at it. -/
def deg (d : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 d)
    (broadcastInDim S1600000 ![] bcast_S_S1600000 (constant S_ .f32 0x3F800000#32))

/-- The larger of that number and one. -/
def cnt (d : (⟨S1600000, .i32⟩ : BufTy).Contents (Elt F)) : (⟨S100000, .f32⟩ : BufTy).Contents (Elt F) :=
  maximumf (deg d) (broadcastInDim S100000 ![] bcast_S_S100000 (constant S_ .f32 0x3F800000#32))

/-- One over it, as a column. -/
def inv (d : (⟨S1600000, .i32⟩ : BufTy).Contents (Elt F)) : (⟨S100000x1, .f32⟩ : BufTy).Contents (Elt F) :=
  shapeCast _ (Host.divf (broadcastInDim S100000 ![] bcast_S_S100000 (constant S_ .f32 0x3F800000#32)) (cnt d))
    shapeCasts_S100000_S100000x1

/-- A bias vector as one row. -/
def brow (b : (⟨S128, .f32⟩ : BufTy).Contents (Elt F)) : (⟨S1x128, .f32⟩ : BufTy).Contents (Elt F) :=
  shapeCast _ b shapeCasts_S128_S1x128

variable (m : (ℓ : Loc nD τ sig) → Buf (Elt F) ℓ) (ρ : Dev nD → PrngReg)

/-! ## At the first grid's entry -/

theorem V1_v1 (c : Dev nD) : (V1 m ρ c main_v1 : (⟨S1600000, .i32⟩ : BufTy).Contents (Elt F)) = src (m ((c : Thread nD τ).loc main_arg1)) := by
  show StableHlo.after hostOps0 (W0 m ρ c) (Proc.devRef .tc main_v1) = _
  after_results_simp
  try rfl

theorem V1_v3 (c : Dev nD) : (V1 m ρ c main_v3 : (⟨S1600000, .i32⟩ : BufTy).Contents (Elt F)) = dst (m ((c : Thread nD τ).loc main_arg1)) := by
  show StableHlo.after hostOps0 (W0 m ρ c) (Proc.devRef .tc main_v3) = _
  after_results_simp
  try rfl

theorem V1_v22 (c : Dev nD) : (V1 m ρ c main_v22 : (⟨S100000x128, .f32⟩ : BufTy).Contents (Elt F))
    = sagg (m ((c : Thread nD τ).loc main_arg0)) (src (m ((c : Thread nD τ).loc main_arg1))) (dst (m ((c : Thread nD τ).loc main_arg1))) := by
  show StableHlo.after hostOps0 (W0 m ρ c) (Proc.devRef .tc main_v22) = _
  after_results_simp
  try rfl

theorem V1_v12 (c : Dev nD) : (V1 m ρ c main_v12 : (⟨S100000x1, .f32⟩ : BufTy).Contents (Elt F)) = inv (dst (m ((c : Thread nD τ).loc main_arg1))) := by
  show StableHlo.after hostOps0 (W0 m ρ c) (Proc.devRef .tc main_v12) = _
  after_results_simp
  try rfl

theorem V1_v23 (c : Dev nD) : (V1 m ρ c main_v23 : (⟨S1x128, .f32⟩ : BufTy).Contents (Elt F)) = brow (m ((c : Thread nD τ).loc main_arg3)) := by
  show StableHlo.after hostOps0 (W0 m ρ c) (Proc.devRef .tc main_v23) = _
  after_results_simp
  try rfl

theorem V1_arg0 (c : Dev nD) : (V1 m ρ c main_arg0 : (⟨S100000x128, .f32⟩ : BufTy).Contents (Elt F)) = m ((c : Thread nD τ).loc main_arg0) := by
  show StableHlo.after hostOps0 (W0 m ρ c) (Proc.devRef .tc main_arg0) = _
  after_results_simp
  try rfl

theorem V1_arg2 (c : Dev nD) : (V1 m ρ c main_arg2 : (⟨S128x128, .f32⟩ : BufTy).Contents (Elt F)) = m ((c : Thread nD τ).loc main_arg2) := by
  show StableHlo.after hostOps0 (W0 m ρ c) (Proc.devRef .tc main_arg2) = _
  after_results_simp
  try rfl

theorem V1_arg4 (c : Dev nD) : (V1 m ρ c main_arg4 : (⟨S128x128, .f32⟩ : BufTy).Contents (Elt F)) = m ((c : Thread nD τ).loc main_arg4) := by
  show StableHlo.after hostOps0 (W0 m ρ c) (Proc.devRef .tc main_arg4) = _
  after_results_simp
  try rfl

theorem V1_arg5 (c : Dev nD) : (V1 m ρ c main_arg5 : (⟨S128x128, .f32⟩ : BufTy).Contents (Elt F)) = m ((c : Thread nD τ).loc main_arg5) := by
  show StableHlo.after hostOps0 (W0 m ρ c) (Proc.devRef .tc main_arg5) = _
  after_results_simp
  try rfl

theorem V1_arg6 (c : Dev nD) : (V1 m ρ c main_arg6 : (⟨S128, .f32⟩ : BufTy).Contents (Elt F)) = m ((c : Thread nD τ).loc main_arg6) := by
  show StableHlo.after hostOps0 (W0 m ρ c) (Proc.devRef .tc main_arg6) = _
  after_results_simp
  try rfl

theorem V1_arg7 (c : Dev nD) : (V1 m ρ c main_arg7 : (⟨S128x128, .f32⟩ : BufTy).Contents (Elt F)) = m ((c : Thread nD τ).loc main_arg7) := by
  show StableHlo.after hostOps0 (W0 m ρ c) (Proc.devRef .tc main_arg7) = _
  after_results_simp
  try rfl

/-! ## After the first grid: its result array holds what the grid left, its operands and every other buffer what they held -/

theorem W2_v24 (c : Dev nD) : W2 m ρ c (Proc.devRef .tc main_v24) = (dat0 (V1 m ρ) c).arrAt 6 cfg0.N := W2_arr m ρ c 6

theorem W2_v12 (c : Dev nD) : W2 m ρ c (Proc.devRef .tc main_v12) = V1 m ρ c main_v12 :=
  (W2_arr m ρ c 2).trans (((dat0 (V1 m ρ) c).arrAt_in 2 rfl _).trans (A_eq0 (V1 m ρ) c 2))

theorem W2_v1 (c : Dev nD) : W2 m ρ c (Proc.devRef .tc main_v1) = V1 m ρ c main_v1 := W2_of_ne m ρ c main_v1 (by decide)
theorem W2_v3 (c : Dev nD) : W2 m ρ c (Proc.devRef .tc main_v3) = V1 m ρ c main_v3 := W2_of_ne m ρ c main_v3 (by decide)
theorem W2_arg5 (c : Dev nD) : W2 m ρ c (Proc.devRef .tc main_arg5) = V1 m ρ c main_arg5 := W2_of_ne m ρ c main_arg5 (by decide)
theorem W2_arg6 (c : Dev nD) : W2 m ρ c (Proc.devRef .tc main_arg6) = V1 m ρ c main_arg6 := W2_of_ne m ρ c main_arg6 (by decide)
theorem W2_arg7 (c : Dev nD) : W2 m ρ c (Proc.devRef .tc main_arg7) = V1 m ρ c main_arg7 := W2_of_ne m ρ c main_arg7 (by decide)

/-! ## At the second grid's entry -/

theorem V3_v34 (c : Dev nD) : (V3 m ρ c main_v34 : (⟨S100000x128, .f32⟩ : BufTy).Contents (Elt F))
    = sagg (W2 m ρ c (Proc.devRef .tc main_v24)) (W2 m ρ c (Proc.devRef .tc main_v1)) (W2 m ρ c (Proc.devRef .tc main_v3)) := by
  show StableHlo.after hostOps1 (W2 m ρ c) (Proc.devRef .tc main_v34) = _
  after_results_simp
  try rfl

theorem V3_v35 (c : Dev nD) : (V3 m ρ c main_v35 : (⟨S1x128, .f32⟩ : BufTy).Contents (Elt F)) = brow (W2 m ρ c (Proc.devRef .tc main_arg6)) := by
  show StableHlo.after hostOps1 (W2 m ρ c) (Proc.devRef .tc main_v35) = _
  after_results_simp
  try rfl

theorem V3_v24 (c : Dev nD) : (V3 m ρ c main_v24 : (⟨S100000x128, .f32⟩ : BufTy).Contents (Elt F)) = W2 m ρ c (Proc.devRef .tc main_v24) := by
  show StableHlo.after hostOps1 (W2 m ρ c) (Proc.devRef .tc main_v24) = _
  after_results_simp
  try rfl

theorem V3_v12 (c : Dev nD) : (V3 m ρ c main_v12 : (⟨S100000x1, .f32⟩ : BufTy).Contents (Elt F)) = W2 m ρ c (Proc.devRef .tc main_v12) := by
  show StableHlo.after hostOps1 (W2 m ρ c) (Proc.devRef .tc main_v12) = _
  after_results_simp
  try rfl

theorem V3_arg5 (c : Dev nD) : (V3 m ρ c main_arg5 : (⟨S128x128, .f32⟩ : BufTy).Contents (Elt F)) = W2 m ρ c (Proc.devRef .tc main_arg5) := by
  show StableHlo.after hostOps1 (W2 m ρ c) (Proc.devRef .tc main_arg5) = _
  after_results_simp
  try rfl

theorem V3_arg7 (c : Dev nD) : (V3 m ρ c main_arg7 : (⟨S128x128, .f32⟩ : BufTy).Contents (Elt F)) = W2 m ρ c (Proc.devRef .tc main_arg7) := by
  show StableHlo.after hostOps1 (W2 m ρ c) (Proc.devRef .tc main_arg7) = _
  after_results_simp
  try rfl

end Cert.KernelIdeal.SageHost

end
-- ==== Proof.RunValue.lean ====
/-
  The idealized kernel program's run with its result named.

  The program is four segments: host operations, the first layer's grid, host operations, the second layer's grid.
  The buffer contents at each boundary are a fold through the segments from the launch memory; after the last segment
  every buffer that outlives the grids holds the last boundary's contents.  The frame proof reads the eight argument
  arrays off those contents; read here in the same way is, besides them, the result array.
-/
import proofs.«154690_j45655502356568_2_alg».proof.Proof.Gen.KernelIdeal.Frame

set_option maxRecDepth 16384

noncomputable section

namespace Cert.KernelIdeal.SageRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from `m` terminates without a fault with the result array at the last boundary's
    contents and the arguments as launched. -/
theorem run_result : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.SageRun

end
-- ==== Proof.KernelValue.lean ====
/-
  The result of the kernel program as one function of its eight arguments.

  Following the buffer contents through the four segments: the first grid leaves in its result array the rectified
  layer of (the neighbour sums of the argument rows, the argument rows, the reciprocal counts, the first weights and
  bias); the host then forms the neighbour sums of that array; the second grid leaves the layer of (those sums, the
  first grid's array, the same reciprocal counts, the second weights and bias).  The reciprocal counts are computed
  once, before the first grid, and the second grid finds them unchanged.
-/
import proofs.«154690_j45655502356568_2_alg».proof.Proof.Final
import proofs.«154690_j45655502356568_2_alg».proof.Proof.KernelHost
import proofs.«154690_j45655502356568_2_alg».proof.Proof.RunValue

set_option maxRecDepth 16384

noncomputable section

namespace Cert.KernelIdeal.SageValue

open Cert.KernelIdeal Cert.KernelIdeal.Gen Cert.KernelIdeal.SageFinal Cert.KernelIdeal.SageHost Cert.KernelIdeal.SageRun
open Idealize.ShloMosaic Idealize.ShloMosaic.TcCoe Idealize.SL.Sem

/-- The first grid's result: the rectified layer of the arguments. -/
def hidden (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) : (⟨S100000x128, .f32⟩ : BufTy).Contents (Elt Ideal) :=
  G0 (sagg x0 (src x1) (dst x1)) x0 (inv (dst x1)) x2 x4 (brow x3)

/-- The program's result: the layer of the first grid's result. -/
def result (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) : (⟨S100000x128, .f32⟩ : BufTy).Contents (Elt Ideal) :=
  G1 (sagg (hidden x0 x1 x2 x3 x4) (src x1) (dst x1)) (hidden x0 x1 x2 x3 x4) (inv (dst x1)) x5 x7 (brow x6)

variable (m : (ℓ : Loc nD τ sig) → Buf (Elt Ideal) ℓ) (ρ : Dev nD → PrngReg)

/-- What the first grid leaves in its result array. -/
theorem first_grid (c : Dev nD) : (dat0 (V1 m ρ) c).arrAt 6 cfg0.N
    = hidden (m ((c : Thread nD τ).loc main_arg0)) (m ((c : Thread nD τ).loc main_arg1)) (m ((c : Thread nD τ).loc main_arg2))
        (m ((c : Thread nD τ).loc main_arg3)) (m ((c : Thread nD τ).loc main_arg4)) := by
  rw [final0 (V1 m ρ) c, V1_v22, V1_arg0, V1_v12, V1_arg2, V1_arg4, V1_v23]
  rfl

/-- The result array after the last segment. -/
theorem last_contents (c : Dev nD) : W4 m ρ c (Proc.devRef .tc main_v36) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show W4 m ρ c (Proc.devRef .tc main_v36) = (dat1 (V3 m ρ) c).arrAt 6 cfg1.N from W4_arr m ρ c 6]
  rw [final1 (V3 m ρ) c, V3_v34, V3_v24, V3_v12, V3_arg5, V3_arg7, V3_v35, W2_v24, W2_v1, W2_v3, W2_v12, W2_arg5, W2_arg6, W2_arg7,
    first_grid, V1_v1, V1_v3, V1_v12, V1_arg5, V1_arg6, V1_arg7]
  rfl

/-- The run of the kernel program: the result array at `result` of the arguments, the arguments unchanged. -/
theorem run : θ_run defs (onTc (τ := τ) (main (F := Ideal))) ⟨m, fun _ => 0, ρ⟩ (fun r => ∀ c : Dev nD,
      r.2.mem ((c.tc : Thread nD τ).loc main_v36) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (last_contents m ρ c), (h c).2⟩) (run_result m ρ)

end Cert.KernelIdeal.SageValue

end
-- ==== Proof.RefDefs.lean ====
/-
  The reference program's building blocks as functions of whole arrays.

  The reference applies the same layer twice.  Each application first adds, for every node, the feature rows of its
  in-neighbours (a gather of the source nodes' rows followed by a scatter-add onto the destination nodes: `sagg`) and
  counts the in-neighbours (`cnt`, the larger of the count and one); then `layer` divides the sums by the counts,
  applies the two matrices and the bias, and divides every row by the larger of its Euclidean length and a small level.
  Between the two applications a rectifier is applied (`relu`).  These definitions spell the operations exactly as the
  printed program does, so the program's stages are these functions by unfolding.
-/
import proofs.«154690_j45655502356568_2_alg».proof.Proof.Gen.ReferenceIdeal

noncomputable section

namespace Cert.ReferenceIdeal.SageRef

open Cert.ReferenceIdeal Cert.ReferenceIdeal.Gen Idealize.ShloMosaic

variable {F : FTy → Type} [FloatOps F]

/-- The source node of every edge (row 0 of the edge list). -/
def src (x1 : (⟨S2x1600000, .i32⟩ : BufTy).Contents (Elt F)) : (⟨S1600000, .i32⟩ : BufTy).Contents (Elt F) :=
  shapeCast _ (extractStridedSlice S1x1600000 ![0, 0] x1 slices_S2x1600000_S1x1600000_0_0) shapeCasts_S1x1600000_S1600000

/-- The destination node of every edge (row 1 of the edge list). -/
def dst (x1 : (⟨S2x1600000, .i32⟩ : BufTy).Contents (Elt F)) : (⟨S1600000, .i32⟩ : BufTy).Contents (Elt F) :=
  shapeCast _ (extractStridedSlice S1x1600000 ![1, 0] x1 slices_S2x1600000_S1x1600000_1_0) shapeCasts_S1x1600000_S1600000

/-- For every node, the sum of the rows of `h` at the sources of the edges that end at it: the rows gathered at the
    sources (a negative source counted from the end) and scatter-added at the destinations onto zeros. -/
def sagg (h : (⟨S100000x128, .f32⟩ : BufTy).Contents (Elt F)) (s d : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- For every node, the number of edges that end at it: ones scatter-added at the destinations onto zeros. -/
def deg (d : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 d)
    (broadcastInDim S1600000 ![] bcast_S_S1600000 (constant S_ .f32 0x3F800000#32))

/-- The larger of that number and one. -/
def cnt (d : (⟨S1600000, .i32⟩ : BufTy).Contents (Elt F)) : (⟨S100000, .f32⟩ : BufTy).Contents (Elt F) :=
  maximumf (deg d) (broadcastInDim S100000 ![] bcast_S_S100000 (constant S_ .f32 0x3F800000#32))

/-- The rows before normalisation: the neighbour sums divided by the counts, through `wl`, plus the bias, plus the
    nodes' own rows through `wr`. -/
def pre (h agg : (⟨S100000x128, .f32⟩ : BufTy).Contents (Elt F)) (cm : (⟨S100000, .f32⟩ : BufTy).Contents (Elt F))
    (wl wr : (⟨S128x128, .f32⟩ : BufTy).Contents (Elt F)) (b : (⟨S128, .f32⟩ : BufTy).Contents (Elt F)) :
    (⟨S100000x128, .f32⟩ : BufTy).Contents (Elt F) :=
  addf (addf (Host.dotGeneral dot_S100000x128_S128x128_S100000x128_1_0_0_1_n_n none
        (Host.divf agg (broadcastInDim S100000x128 ![0, 1] bcast_S100000x1_S100000x128_0_1
          (broadcastInDim S100000x1 ![0] bcast_S100000_S100000x1_0 cm))) wl)
      (broadcastInDim S100000x128 ![0, 1] bcast_S1x128_S100000x128_0_1 (broadcastInDim S1x128 ![1] bcast_S128_S1x128_1 b)))
    (Host.dotGeneral dot_S100000x128_S128x128_S100000x128_1_0_0_1_n_n none h wr)

/-- Every row divided by the larger of its Euclidean length and the small level. -/
def normalize (y : (⟨S100000x128, .f32⟩ : BufTy).Contents (Elt F)) : (⟨S100000x128, .f32⟩ : BufTy).Contents (Elt F) :=
  Host.divf y (broadcastInDim S100000x128 ![0, 1] bcast_S100000x1_S100000x128_0_1
    (maximumf (Host.sqrt (broadcastInDim S100000x1 ![0] bcast_S100000_S100000x1_0
        (Host.reduceAdd (mulf y y) (constant S_ .f32 0x00000000#32) reducesTo_S100000x128_S100000_d1 h_S_)))
      (broadcastInDim S100000x1 ![] bcast_S_S100000x1 (constant S_ .f32 0x2B8CBCCC#32))))

/-- One layer. -/
def layer (h agg : (⟨S100000x128, .f32⟩ : BufTy).Contents (Elt F)) (cm : (⟨S100000, .f32⟩ : BufTy).Contents (Elt F))
    (wl wr : (⟨S128x128, .f32⟩ : BufTy).Contents (Elt F)) (b : (⟨S128, .f32⟩ : BufTy).Contents (Elt F)) :
    (⟨S100000x128, .f32⟩ : BufTy).Contents (Elt F) :=
  normalize (pre h agg cm wl wr b)

/-- The rectifier. -/
def relu (y : (⟨S100000x128, .f32⟩ : BufTy).Contents (Elt F)) : (⟨S100000x128, .f32⟩ : BufTy).Contents (Elt F) :=
  maximumf y (broadcastInDim S100000x128 ![] bcast_S_S100000x128 (constant S_ .f32 0x00000000#32))

end Cert.ReferenceIdeal.SageRef

end
-- ==== Proof.RefValue.lean ====
/-
  The reference program's result as two applications of one layer.

  The program's stages, read one operation at a time, compose to: the layer of (the argument rows, their neighbour
  sums, the counts, the first weights and bias), rectified; then the layer of (that array, its neighbour sums, the
  same counts computed again, the second weights and bias).  Each equation is the stages' definitions unfolded.
-/
import proofs.«154690_j45655502356568_2_alg».proof.Proof.Gen.ReferenceIdeal.Read
import proofs.«154690_j45655502356568_2_alg».proof.Proof.RefDefs

set_option maxRecDepth 16384

noncomputable section

namespace Cert.ReferenceIdeal.SageRef

open Cert.ReferenceIdeal Cert.ReferenceIdeal.Gen Cert.ReferenceIdeal.Read Idealize.ShloMosaic Idealize.ShloMosaic.TcCoe Idealize.SL.Sem

variable {F : FTy → Type} [FloatOps F]

theorem stage_src (x1 : (⟨S2x1600000, .i32⟩ : BufTy).Contents (Elt F)) : val_main_v1 (F := F) x1 = src x1 := rfl
theorem stage_dst (x1 : (⟨S2x1600000, .i32⟩ : BufTy).Contents (Elt F)) : val_main_v3 (F := F) x1 = dst x1 := rfl

/-- The first neighbour sums. -/
theorem stage_agg1 (x0 : (⟨S100000x128, .f32⟩ : BufTy).Contents (Elt F)) (x1 : (⟨S2x1600000, .i32⟩ : BufTy).Contents (Elt F)) :
    val_main_v13 (F := F) x0 x1 = sagg x0 (src x1) (dst x1) := rfl

/-- The counts, as computed for the first layer and again for the second. -/
theorem stage_cnt1 (x1 : (⟨S2x1600000, .i32⟩ : BufTy).Contents (Elt F)) : val_main_v19 (F := F) x1 = cnt (dst x1) := rfl
theorem stage_cnt2 (x1 : (⟨S2x1600000, .i32⟩ : BufTy).Contents (Elt F)) : val_main_v50 (F := F) x1 = cnt (dst x1) := rfl

/-- The first layer before normalisation. -/
theorem stage_pre1 (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) :
    val_main_v28 (F := F) x0 x1 x2 x3 x4 = pre x0 (sagg x0 (src x1) (dst x1)) (cnt (dst x1)) x2 x4 x3 := rfl

/-- The first layer. -/
theorem stage_layer1 (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) :
    val_main_v33 (F := F) x0 x1 x2 x3 x4 = layer x0 (sagg x0 (src x1) (dst x1)) (cnt (dst x1)) x2 x4 x3 := by
  unfold val_main_v33 val_main_v32 val_main_v31 val_main_v30 val_main_cst_4 val_main_v29 val_main_call0_v2 val_main_call0_v1
    val_main_call0_cst val_main_call0_v0
  rw [stage_pre1]
  rfl

/-- The first layer, rectified. -/
theorem stage_hidden (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) :
    val_main_v34 (F := F) x0 x1 x2 x3 x4 = relu (layer x0 (sagg x0 (src x1) (dst x1)) (cnt (dst x1)) x2 x4 x3) := by
  unfold val_main_v34 val_main_call1_v0 val_main_call1_cst
  rw [stage_layer1]
  rfl

/-- The second neighbour sums. -/
theorem stage_agg2 (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) :
    val_main_v44 (F := F) x0 x1 x2 x3 x4 = sagg (val_main_v34 (F := F) x0 x1 x2 x3 x4) (src x1) (dst x1) := rfl

/-- The second layer before normalisation. -/
theorem stage_pre2 (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) (x5 : (⟨S128x128, .f32⟩ : BufTy).Contents (Elt F))
    (x6 : (⟨S128, .f32⟩ : BufTy).Contents (Elt F)) (x7 : (⟨S128x128, .f32⟩ : BufTy).Contents (Elt F)) :
    val_main_v59 (F := F) x0 x1 x2 x3 x4 x5 x6 x7
      = pre (val_main_v34 (F := F) x0 x1 x2 x3 x4) (sagg (val_main_v34 (F := F) x0 x1 x2 x3 x4) (src x1) (dst x1)) (cnt (dst x1)) x5 x7 x6 := rfl

/-- The program's result. -/
theorem stage_result (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) (x5 : (⟨S128x128, .f32⟩ : BufTy).Contents (Elt F))
    (x6 : (⟨S128, .f32⟩ : BufTy).Contents (Elt F)) (x7 : (⟨S128x128, .f32⟩ : BufTy).Contents (Elt F)) :
    val_main_v64 (F := F) x0 x1 x2 x3 x4 x5 x6 x7
      = layer (relu (layer x0 (sagg x0 (src x1) (dst x1)) (cnt (dst x1)) x2 x4 x3))
          (sagg (relu (layer x0 (sagg x0 (src x1) (dst x1)) (cnt (dst x1)) x2 x4 x3)) (src x1) (dst x1)) (cnt (dst x1)) x5 x7 x6 := by
  unfold val_main_v64 val_main_v63 val_main_v62 val_main_v61 val_main_cst_11 val_main_v60 val_main_call2_v2 val_main_call2_v1
    val_main_call2_cst val_main_call2_v0
  rw [stage_pre2, stage_hidden]
  rfl

end Cert.ReferenceIdeal.SageRef

end
-- ==== Proof.RefLayer.lean ====
/-
  One layer of the reference program, read entry by entry over the extended reals.

  The layer works on an array of 100000 rows of 128 features.  Write h for the nodes' own rows, agg for the sums of
  their in-neighbours' rows, cm for the per-node divisors, wl and wr for the two 128 × 128 matrices and b for the bias.
  Before normalisation the entry at row p, column c is

      pre (p, c) = ((∑ k, (agg (p, k) / cm p) · wl (k, c)) + b c) + ∑ k, h (p, k) · wr (k, c),

  and the layer's entry is pre (p, c) divided by the larger of the Euclidean length of row p of pre,
  sqrt (∑ j, pre (p, j)²), and a small positive level.  Each whole-array operation is read at one entry:
  • a vector of one value per row, turned into a column and spread over the columns, has at (p, c) the value of row p;
  • a vector of one value per column, turned into a row and spread over the rows, has at (p, c) the value of column c;
  • one number spread over an array has that number at every entry;
  • the product of an array with a 128 × 128 matrix has at (p, c) the sum over k of the products of entry (p, k) and
    matrix entry (k, c);
  • the sum along the columns, started from zero, has at row p the sum of the 128 entries of that row (the starting
    zero is absorbed: 0 + x = x);
  • sums, products, quotients, square roots and maxima of arrays act entry by entry.
  Composed, the entry of the layer at (p, c) is the one-node layer of SageRow applied to row p of the operands.  The
  rectifier is the entrywise maximum with the zero level, and the divisor count is the entrywise maximum of the
  in-degree with one.  No algebra of the extended reals beyond 0 + x = x is used, and nothing needs to be finite.
-/
import proofs.«154690_j45655502356568_2_alg».proof.Proof.RefDefs
import proofs.«154690_j45655502356568_2_alg».proof.Proof.LibBlockDot
import proofs.«154690_j45655502356568_2_alg».proof.Proof.LibLayout3
import proofs.«154690_j45655502356568_2_alg».proof.Proof.SageRow
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.SageRef

open Cert.ReferenceIdeal Cert.ReferenceIdeal.Gen Idealize.ShloMosaic Idealize.ShloMosaic.ValueIdx

/-- The program's product contracts the left operand's columns with the right operand's rows and has no batch axes. -/
theorem dot_plain : dot_S100000x128_S128x128_S100000x128_1_0_0_1_n_n = DotDims.plain 100000 128 128 := rfl

section Layout
variable {α : Type}

/-- One value per row, made a column and spread over the columns: at (p, c) the value of row p. -/
theorem col_spread_apply (v : S100000.Idx → α) (p : Fin 100000) (c : Fin 128) :
    broadcastInDim S100000x128 ![0, 1] bcast_S100000x1_S100000x128_0_1
        (broadcastInDim S100000x1 ![0] bcast_S100000_S100000x1_0 v) (ix2 p c) = v (ix1 p) := by
  refine (broadcastInDim_apply _ bcast_S100000x1_S100000x128_0_1 _ (ix2 p c) (ix2 p (0 : Fin 1)) (fun a => match a with
    | ⟨0, _⟩ => by show p.val = if (100000 : Nat) = 1 then 0 else p.val; rw [if_neg (by decide)]
    | ⟨1, _⟩ => by show 0 = if (1 : Nat) = 1 then 0 else c.val; rw [if_pos rfl])).trans ?_
  exact broadcastInDim_apply _ bcast_S100000_S100000x1_0 v (ix2 p (0 : Fin 1)) (ix1 p) (fun a => match a with
    | ⟨0, _⟩ => by show p.val = if (100000 : Nat) = 1 then 0 else p.val; rw [if_neg (by decide)])

/-- A column spread over the columns: at (p, c) the column's entry of row p. -/
theorem column_spread_apply (v : S100000x1.Idx → α) (p : Fin 100000) (c : Fin 128) :
    broadcastInDim S100000x128 ![0, 1] bcast_S100000x1_S100000x128_0_1 v (ix2 p c) = v (ix2 p (0 : Fin 1)) :=
  broadcastInDim_apply _ bcast_S100000x1_S100000x128_0_1 v (ix2 p c) (ix2 p (0 : Fin 1)) (fun a => match a with
    | ⟨0, _⟩ => by show p.val = if (100000 : Nat) = 1 then 0 else p.val; rw [if_neg (by decide)]
    | ⟨1, _⟩ => by show 0 = if (1 : Nat) = 1 then 0 else c.val; rw [if_pos rfl])

/-- One value per row made a column: at (p, 0) the value of row p. -/
theorem column_apply (v : S100000.Idx → α) (p : Fin 100000) (u : Fin 1) :
    broadcastInDim S100000x1 ![0] bcast_S100000_S100000x1_0 v (ix2 p u) = v (ix1 p) :=
  broadcastInDim_apply _ bcast_S100000_S100000x1_0 v (ix2 p u) (ix1 p) (fun a => match a with
    | ⟨0, _⟩ => by show p.val = if (100000 : Nat) = 1 then 0 else p.val; rw [if_neg (by decide)])

/-- One value per column, made a row and spread over the rows: at (p, c) the value of column c. -/
theorem row_spread_apply (b : S128.Idx → α) (p : Fin 100000) (c : Fin 128) :
    broadcastInDim S100000x128 ![0, 1] bcast_S1x128_S100000x128_0_1
        (broadcastInDim S1x128 ![1] bcast_S128_S1x128_1 b) (ix2 p c) = b (ix1 c) := by
  refine (broadcastInDim_apply _ bcast_S1x128_S100000x128_0_1 _ (ix2 p c) (ix2 (0 : Fin 1) c) (fun a => match a with
    | ⟨0, _⟩ => by show 0 = if (1 : Nat) = 1 then 0 else p.val; rw [if_pos rfl]
    | ⟨1, _⟩ => by show c.val = if (128 : Nat) = 1 then 0 else c.val; rw [if_neg (by decide)])).trans ?_
  exact broadcastInDim_apply _ bcast_S128_S1x128_1 b (ix2 (0 : Fin 1) c) (ix1 c) (fun a => match a with
    | ⟨0, _⟩ => by show c.val = if (128 : Nat) = 1 then 0 else c.val; rw [if_neg (by decide)])

end Layout

section Values

/-- One number spread over the 100000 × 128 array: that number at every entry. -/
theorem splat_array_apply (w : BitVec 32) (i : S100000x128.Idx) :
    broadcastInDim S100000x128 ![] bcast_S_S100000x128 (constant (F := Ideal) S_ .f32 w) i = Ideal.ofBits .f32 w := rfl

/-- One number spread over the vector of 100000 entries: that number at every entry. -/
theorem splat_vector_apply (w : BitVec 32) (i : S100000.Idx) :
    broadcastInDim S100000 ![] bcast_S_S100000 (constant (F := Ideal) S_ .f32 w) i = Ideal.ofBits .f32 w := rfl

/-- One number spread over the column of 100000 entries: that number at every entry. -/
theorem splat_column_apply (w : BitVec 32) (i : S100000x1.Idx) :
    broadcastInDim S100000x1 ![] bcast_S_S100000x1 (constant (F := Ideal) S_ .f32 w) i = Ideal.ofBits .f32 w := rfl

/-- The host's quotient of two arrays, entry by entry. -/
theorem hostDiv_apply {s : Shape} (x y : FVec Ideal s .f32) (i : s.Idx) : Host.divf x y i = Ideal.div (x i) (y i) := rfl

/-- The host's square root of an array, entry by entry. -/
theorem hostSqrt_apply {s : Shape} (x : FVec Ideal s .f32) (i : s.Idx) : Host.sqrt x i = Ideal.sqrt (x i) := rfl

/-- The sum along the columns started from zero: at row p the sum of that row's 128 entries. -/
theorem rowsum_apply (y : FVec Ideal S100000x128 .f32) (p : Fin 100000) :
    Host.reduceAdd (F := Ideal) y (constant (F := Ideal) S_ .f32 0x00000000#32) reducesTo_S100000x128_S100000_d1 h_S_ (ix1 p)
      = ∑ j : Fin 128, y (ix2 p j) := by
  simp only [Host.reduceAdd, Ideal.hostReduceAdd_def]
  rw [Ideal.hostReduceAdd_single reducesTo_S100000x128_S100000_d1 (by decide)]
  refine (congrArg (· + _) (show constant (F := Ideal) S_ .f32 0x00000000#32 (Shape.Idx.first h_S_) = 0 from
    Ideal.ofBits_zero_f32)).trans ?_
  rw [zero_add]
  exact Finset.sum_congr rfl fun k _ =>
    congrArg y (funext fun a => Fin.ext (by match a with | ⟨0, _⟩ => rfl | ⟨1, _⟩ => rfl))

/-- The product of an array with a 128 × 128 matrix: at (p, c) the sum over k of entry (p, k) times matrix entry (k, c). -/
theorem product_apply (a : FVec Ideal S100000x128 .f32) (w : FVec Ideal S128x128 .f32) (p : Fin 100000) (c : Fin 128) :
    Host.dotGeneral (F := Ideal) dot_S100000x128_S128x128_S100000x128_1_0_0_1_n_n none a w (ix2 p c)
      = ∑ k : Fin 128, a (ix2 p k) * w (ix2 k c) :=
  Cert.BlockDot.hdot_apply (R := 100000) (K := 128) (N := 128) (φ₁ := .f32) (φ₂ := .f32) none a w p c

end Values

/-- The rows before normalisation, at (p, c): the one-node formula on row p. -/
theorem pre_apply (h agg : (⟨S100000x128, .f32⟩ : BufTy).Contents (Elt Ideal)) (cm : (⟨S100000, .f32⟩ : BufTy).Contents (Elt Ideal))
    (wl wr : (⟨S128x128, .f32⟩ : BufTy).Contents (Elt Ideal)) (b : (⟨S128, .f32⟩ : BufTy).Contents (Elt Ideal)) (p : Fin 100000) (c : Fin 128) :
    pre (F := Ideal) h agg cm wl wr b (ix2 p c)
      = Cert.Sage.preDiv (fun k => agg (ix2 p k)) (fun k => h (ix2 p k)) (cm (ix1 p))
          (fun k j => wl (ix2 k j)) (fun k j => wr (ix2 k j)) (fun j => b (ix1 j)) c := by
  unfold pre Cert.Sage.preDiv
  refine (addf_apply _ _ _).trans (congrArg₂ (· + ·) ((addf_apply _ _ _).trans (congrArg₂ (· + ·) ?_ ?_)) ?_)
  · refine (product_apply _ wl p c).trans (Finset.sum_congr rfl fun k _ => congrArg (· * wl (ix2 k c)) ?_)
    exact (hostDiv_apply _ _ _).trans (congrArg (Ideal.div (agg (ix2 p k))) (col_spread_apply cm p k))
  · exact row_spread_apply b p c
  · exact product_apply h wr p c

/-- Every row divided by the larger of its Euclidean length and the small level, at (p, c). -/
theorem normalize_apply (y : (⟨S100000x128, .f32⟩ : BufTy).Contents (Elt Ideal)) (p : Fin 100000) (c : Fin 128) :
    normalize (F := Ideal) y (ix2 p c)
      = Ideal.div (y (ix2 p c)) (max (Ideal.sqrt (∑ j : Fin 128, y (ix2 p j) * y (ix2 p j))) Cert.Sage.eps) := by
  unfold normalize
  refine (hostDiv_apply _ _ _).trans (congrArg (Ideal.div (y (ix2 p c))) ?_)
  refine (column_spread_apply _ p c).trans ?_
  refine (maximumf_apply _ _ _).trans (congrArg₂ max ?_ (splat_column_apply _ _))
  refine (hostSqrt_apply _ _).trans (congrArg Ideal.sqrt ?_)
  refine (column_apply _ p (0 : Fin 1)).trans ?_
  exact rowsum_apply (mulf y y) p

/-- One layer at (p, c): the one-node layer on row p of the operands. -/
theorem layer_apply (h agg : (⟨S100000x128, .f32⟩ : BufTy).Contents (Elt Ideal)) (cm : (⟨S100000, .f32⟩ : BufTy).Contents (Elt Ideal))
    (wl wr : (⟨S128x128, .f32⟩ : BufTy).Contents (Elt Ideal)) (b : (⟨S128, .f32⟩ : BufTy).Contents (Elt Ideal)) (p : Fin 100000) (c : Fin 128) :
    layer (F := Ideal) h agg cm wl wr b (ix2 p c)
      = Cert.Sage.nrm (Cert.Sage.preDiv (fun k => agg (ix2 p k)) (fun k => h (ix2 p k)) (cm (ix1 p))
          (fun k j => wl (ix2 k j)) (fun k j => wr (ix2 k j)) (fun j => b (ix1 j))) c := by
  have hrow : (fun j : Fin 128 => pre (F := Ideal) h agg cm wl wr b (ix2 p j))
      = Cert.Sage.preDiv (fun k => agg (ix2 p k)) (fun k => h (ix2 p k)) (cm (ix1 p))
          (fun k j => wl (ix2 k j)) (fun k j => wr (ix2 k j)) (fun j => b (ix1 j)) :=
    funext fun j => pre_apply h agg cm wl wr b p j
  unfold layer
  refine (normalize_apply (pre (F := Ideal) h agg cm wl wr b) p c).trans ?_
  exact congrArg (fun v : Fin 128 → EReal => Cert.Sage.nrm v c) hrow

/-- The rectifier: the entrywise maximum with the zero level. -/
theorem relu_apply (y : (⟨S100000x128, .f32⟩ : BufTy).Contents (Elt Ideal)) (i : S100000x128.Idx) :
    relu (F := Ideal) y i = max (y i) Cert.Sage.zero := by
  unfold relu
  exact (maximumf_apply _ _ _).trans (congrArg (max (y i)) (splat_array_apply _ i))

/-- The divisor count: the entrywise maximum of the in-degree with one. -/
theorem cnt_apply (d : (⟨S1600000, .i32⟩ : BufTy).Contents (Elt Ideal)) (p : Fin 100000) :
    cnt (F := Ideal) d (ix1 p) = max (deg (F := Ideal) d (ix1 p)) Cert.Sage.one := by
  unfold cnt
  exact (maximumf_apply _ _ _).trans (congrArg (max (deg (F := Ideal) d (ix1 p))) (splat_vector_apply _ (ix1 p)))

end Cert.ReferenceIdeal.SageRef

end
-- ==== Proof.Bridge.lean ====
/-
  The kernel program's layer and the reference program's layer are one function.

  The kernel multiplies the neighbour sums by a column of reciprocals `1 / n` computed once on the host, where `n` is
  the larger of a node's in-degree and one, and adds the bias last; the reference divides the neighbour sums by `n`
  and adds the bias before the node's own term.  Entry by entry these agree for every `n` that is the larger of
  something and one (the row law `preMul_eq_preDiv`); the in-degrees and the neighbour sums themselves are the same
  gather and scatter-add of the same arrays in both programs and are never opened.  Composing the two layers, with the
  rectifier between them, the two programs' results are one function of the eight arguments.
-/
import proofs.«154690_j45655502356568_2_alg».proof.Proof.KernelValue
import proofs.«154690_j45655502356568_2_alg».proof.Proof.RefValue
import proofs.«154690_j45655502356568_2_alg».proof.Proof.RefLayer
import proofs.«154690_j45655502356568_2_alg».proof.Proof.LibLayout3
import Idealize.ShloMosaic.Lib.IdealHost
import Idealize.ShloMosaic.Lib.ValueLayout

set_option maxRecDepth 16384

noncomputable section

namespace Cert.Proof.SageBridge

open Idealize.ShloMosaic Idealize.ShloMosaic.ValueIdx

/-! ## The shared host functions -/

theorem src_eq (x1 : (⟨Cert.KernelIdeal.S2x1600000, .i32⟩ : BufTy).Contents (Elt Ideal)) :
    Cert.KernelIdeal.SageHost.src (F := Ideal) x1 = Cert.ReferenceIdeal.SageRef.src (F := Ideal) x1 := rfl

theorem dst_eq (x1 : (⟨Cert.KernelIdeal.S2x1600000, .i32⟩ : BufTy).Contents (Elt Ideal)) :
    Cert.KernelIdeal.SageHost.dst (F := Ideal) x1 = Cert.ReferenceIdeal.SageRef.dst (F := Ideal) x1 := rfl

theorem sagg_eq (h : (⟨Cert.KernelIdeal.S100000x128, .f32⟩ : BufTy).Contents (Elt Ideal)) (s d : (⟨Cert.KernelIdeal.S1600000, .i32⟩ : BufTy).Contents (Elt Ideal)) :
    Cert.KernelIdeal.SageHost.sagg (F := Ideal) h s d = Cert.ReferenceIdeal.SageRef.sagg (F := Ideal) h s d := rfl

theorem cnt_eq (d : (⟨Cert.KernelIdeal.S1600000, .i32⟩ : BufTy).Contents (Elt Ideal)) :
    Cert.KernelIdeal.SageHost.cnt (F := Ideal) d = Cert.ReferenceIdeal.SageRef.cnt (F := Ideal) d := rfl

/-- The reciprocal column at row `p` is one over the count at `p`. -/
theorem inv_apply (d : (⟨Cert.KernelIdeal.S1600000, .i32⟩ : BufTy).Contents (Elt Ideal)) (p : Fin 100000) :
    Cert.KernelIdeal.SageHost.inv (F := Ideal) d (ix2 p (0 : Fin 1))
      = Ideal.div Cert.Sage.one (Cert.ReferenceIdeal.SageRef.cnt (F := Ideal) d (ix1 p)) := by
  unfold Cert.KernelIdeal.SageHost.inv
  refine (Cert.LibLayout3.shapeCast_a_a1_apply _ _ p (0 : Fin 1)).trans ?_
  refine (hostDivf_apply _ _ (ix1 p)).trans ?_
  rw [broadcastInDim_scalar_apply, cnt_eq]
  rfl

/-- The bias row at column `j` is the bias at `j`. -/
theorem brow_apply (b : (⟨Cert.KernelIdeal.S128, .f32⟩ : BufTy).Contents (Elt Ideal)) (j : Fin 128) :
    Cert.KernelIdeal.SageHost.brow (F := Ideal) b (ix2 (0 : Fin 1) j) = b (ix1 j) := by
  unfold Cert.KernelIdeal.SageHost.brow
  exact shapeCast_a_1a_apply b _ (0 : Fin 1) j

/-! ## One layer -/

/-- The scaling spelling over the host's reciprocal column and bias row is the reference's layer over the counts and
    the bias. -/
theorem layer_bridge (h agg : (⟨Cert.KernelIdeal.S100000x128, .f32⟩ : BufTy).Contents (Elt Ideal)) (d : (⟨Cert.KernelIdeal.S1600000, .i32⟩ : BufTy).Contents (Elt Ideal))
    (wl wr : (⟨Cert.KernelIdeal.S128x128, .f32⟩ : BufTy).Contents (Elt Ideal)) (b : (⟨Cert.KernelIdeal.S128, .f32⟩ : BufTy).Contents (Elt Ideal)) :
    Cert.Sage.layerMul (R := 100000) agg h (Cert.KernelIdeal.SageHost.inv (F := Ideal) d) wl wr (Cert.KernelIdeal.SageHost.brow (F := Ideal) b)
      = Cert.ReferenceIdeal.SageRef.layer (F := Ideal) h agg (Cert.ReferenceIdeal.SageRef.cnt (F := Ideal) d) wl wr b := by
  funext i
  obtain ⟨p, c, rfl⟩ : ∃ (p : Fin 100000) (c : Fin 128), i = ix2 p c := ⟨i 0, i 1, eq_ix2 i⟩
  rw [Cert.Sage.layerMul_apply, Cert.ReferenceIdeal.SageRef.layer_apply, inv_apply, Cert.ReferenceIdeal.SageRef.cnt_apply,
    Cert.Sage.preMul_eq_preDiv, show (fun j => Cert.KernelIdeal.SageHost.brow (F := Ideal) b (ix2 (0 : Fin 1) j)) = fun j => b (ix1 j) from
      funext (brow_apply b)]

/-! ## The two programs' results -/

theorem result_eq (x0 : (⟨Cert.KernelIdeal.S100000x128, .f32⟩ : BufTy).Contents (Elt Ideal)) (x1 : (⟨Cert.KernelIdeal.S2x1600000, .i32⟩ : BufTy).Contents (Elt Ideal))
    (x2 : (⟨Cert.KernelIdeal.S128x128, .f32⟩ : BufTy).Contents (Elt Ideal)) (x3 : (⟨Cert.KernelIdeal.S128, .f32⟩ : BufTy).Contents (Elt Ideal)) (x4 x5 : (⟨Cert.KernelIdeal.S128x128, .f32⟩ : BufTy).Contents (Elt Ideal)) (x6 : (⟨Cert.KernelIdeal.S128, .f32⟩ : BufTy).Contents (Elt Ideal)) (x7 : (⟨Cert.KernelIdeal.S128x128, .f32⟩ : BufTy).Contents (Elt Ideal)) :
    Cert.KernelIdeal.SageValue.result x0 x1 x2 x3 x4 x5 x6 x7
      = Cert.ReferenceIdeal.Read.val_main_v64 (F := Ideal) x0 x1 x2 x3 x4 x5 x6 x7 := by
  rw [Cert.ReferenceIdeal.SageRef.stage_result]
  have hH : Cert.KernelIdeal.SageValue.hidden x0 x1 x2 x3 x4
      = Cert.ReferenceIdeal.SageRef.relu (F := Ideal) (Cert.ReferenceIdeal.SageRef.layer (F := Ideal) x0
          (Cert.ReferenceIdeal.SageRef.sagg (F := Ideal) x0 (Cert.ReferenceIdeal.SageRef.src x1) (Cert.ReferenceIdeal.SageRef.dst x1))
          (Cert.ReferenceIdeal.SageRef.cnt (F := Ideal) (Cert.ReferenceIdeal.SageRef.dst x1)) x2 x4 x3) := by
    funext i
    rw [Cert.ReferenceIdeal.SageRef.relu_apply]
    show max (Cert.Sage.layerMul (R := 100000) _ x0 _ x2 x4 _ i) Cert.Sage.zero = _
    rw [layer_bridge, sagg_eq, src_eq, dst_eq]
  unfold Cert.KernelIdeal.SageValue.result Cert.KernelIdeal.SageFinal.G1
  rw [hH, layer_bridge, sagg_eq, src_eq, dst_eq]

end Cert.Proof.SageBridge

end
-- ==== Proof.lean ====
/-
  Two layers of neighbour averaging with row normalisation: the kernel program against its reference.

  Both programs add, for every node, the feature rows of its in-neighbours (a gather at the edges' sources and a
  scatter-add at their destinations), apply one layer, rectify, form the neighbour sums of the result, and apply the
  layer again.  The kernel program computes each layer on a grid of 25 blocks of 4000 nodes; it multiplies the neighbour
  sums by reciprocal counts `1 / max(deg, 1)` computed once on the host, where the reference divides by
  `max(deg, 1)` in each layer, and it adds the bias after the node's own term where the reference adds it before.

  Over the extended reals these are the same function: a row of a layer's result depends only on the same row of its
  operands, so the blocks of the grid assemble to the layer of the whole arrays; `max(deg, 1)` is never zero, so
  multiplying by its reciprocal is dividing by it; and addition is commutative and associative.  No finiteness is
  needed, and the gathers and scatter-adds are the same operations on the same arrays in both programs and are never
  opened.  The idealisation rewrote no operation, so the kernel program at the extended reals is its own text.
-/
import proofs.«154690_j45655502356568_2_alg».proof.Defs
import proofs.«154690_j45655502356568_2_alg».proof.Proof.Gen.Kernel
import proofs.«154690_j45655502356568_2_alg».proof.Proof.Gen.Kernel.Frame
import proofs.«154690_j45655502356568_2_alg».proof.Proof.Gen.KernelIdeal
import proofs.«154690_j45655502356568_2_alg».proof.Proof.Gen.KernelIdeal.Frame
import proofs.«154690_j45655502356568_2_alg».proof.Proof.Gen.ReferenceIdeal
import proofs.«154690_j45655502356568_2_alg».proof.Proof.Gen.Pre_finite_inputs
import proofs.«154690_j45655502356568_2_alg».proof.Proof.Gen.ReferenceIdeal.Run
import proofs.«154690_j45655502356568_2_alg».proof.Proof.Gen.ReferenceIdeal.Read
import proofs.«154690_j45655502356568_2_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed terminates without a fault and leaves its arguments unchanged. -/
theorem frame_kernel : Cert.frame_Kernel := fun m ρ _ => Cert.Kernel.Gen.frame m ρ

/-- So does the kernel program at the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- From memories that agree on the arguments both programs end with the same result array: the kernel program's is the
    composition of its two grids and host stretches, the reference's is its stages composed, and the two are one
    function of the arguments. -/
theorem algebraic : Cert.algebraic_KernelIdeal_ReferenceIdeal := by
  intro m ρ m' ρ' _ hagree
  refine ⟨fun c => Cert.KernelIdeal.SageValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.SageValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, (hagree c).1, (hagree c).2.1, (hagree c).2.2.1, (hagree c).2.2.2.1, (hagree c).2.2.2.2.1, (hagree c).2.2.2.2.2.1, (hagree c).2.2.2.2.2.2.1, (hagree c).2.2.2.2.2.2.2]
  exact (Cert.Proof.SageBridge.result_eq _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
